-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256 : Shape := ⟨1, ![256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S200000x256 .f32) (main_arg1 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  main_v8
-- ==== Kernel.lean ====
abbrev S200000x256 : Shape := ⟨2, ![200000, 256]⟩
abbrev S256 : Shape := ⟨1, ![256]⟩
abbrev S_ : Shape := ⟨0, ![]⟩
abbrev S1x256 : Shape := ⟨2, ![1, 256]⟩
abbrev S2x1x1 : Shape := ⟨3, ![2, 1, 1]⟩
abbrev S5000x256 : Shape := ⟨2, ![5000, 256]⟩
abbrev S1x1x1 : Shape := ⟨3, ![1, 1, 1]⟩
abbrev S1x1 : Shape := ⟨2, ![1, 1]⟩
abbrev S5000 : Shape := ⟨1, ![5000]⟩
abbrev S5000x1 : Shape := ⟨2, ![5000, 1]⟩
abbrev S1 : Shape := ⟨1, ![1]⟩

abbrev nBuf : Space → Nat
  | .hbm => 26
  | .vmem => 6
  | .smem => 0
  | _ => 0

abbrev bufTy : (tb : Table) → Fin (tcTables nBuf tb) → BufTy
  | .hbm, ⟨0, _⟩ => ⟨S200000x256, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S1x256, .f32⟩
  | .hbm, ⟨17, _⟩ => ⟨S2x1x1, .f32⟩
  | .hbm, ⟨18, _⟩ => ⟨S_, .f32⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S5000x256, .f32⟩
  | .local _ .vmem, ⟨1, _⟩ => ⟨S5000x256, .f32⟩
  | .local _ .vmem, ⟨2, _⟩ => ⟨S1x256, .f32⟩
  | .local _ .vmem, ⟨3, _⟩ => ⟨S1x1x1, .f32⟩
  | .local _ .vmem, ⟨4, _⟩ => ⟨S1x1x1, .f32⟩
  | .local _ .vmem, ⟨5, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v40 : BitVec 1 := Scalar.cmpi .eq arg1 c19_i32
  let v41 : BitVec 32 := Scalar.extui v40
  let c0_i32_17 : BitVec 32 := 0#32
  let v42 : BitVec 1 := Scalar.cmpi .ne v41 c0_i32_17
  v42

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S256 : S_.BroadcastsInDim S256 (![] : Fin 0 → Fin S256.rank)
  shapeCasts_S256_S1x256 : S256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x256_S5000x256_0_0 : ∀ a, (![0, 0] : Fin 2 → Nat) a + S5000x256.size a ≤ S5000x256.size a
  h_S5000x256 : 0 < S5000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  natLt_1_32 : 1 < 32
  reduces_S5000x256_S5000 : S5000x256.Reduces [1] S5000
  shapeCasts_S5000_S5000x1 : S5000.ShapeCasts S5000x1
  broadcasts_S1x256_S5000x256 : S1x256.Broadcasts S5000x256
  reduces_S5000x1_S1 : S5000x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  reducesTo_S256_S_d0 : S256.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S200000x256.size a
  hwx0_0 : ∀ i : grid0.Coords, EltTy.bits .f32 = 32 ∨ (Rect.block (s := S200000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S200000x256 : Shape := ⟨2, ![200000, 256]⟩
abbrev S256 : Shape := ⟨1, ![256]⟩
abbrev S_ : Shape := ⟨0, ![]⟩
abbrev S200000 : Shape := ⟨1, ![200000]⟩
abbrev S1x256 : Shape := ⟨2, ![1, 256]⟩
abbrev S200000x1 : Shape := ⟨2, ![200000, 1]⟩

abbrev nBuf : Space → Nat
  | .hbm => 66
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S200000x256, .f32⟩
  | .hbm, ⟨18, _⟩ => ⟨S200000x256, .i1⟩
  | .hbm, ⟨19, _⟩ => ⟨S200000x256, .i32⟩
  | .hbm, ⟨20, _⟩ => ⟨S_, .i32⟩
  | .hbm, ⟨21, _⟩ => ⟨S200000, .i32⟩
  | .hbm, ⟨22, _⟩ => ⟨S200000, .f32⟩
  | .hbm, ⟨23, _⟩ => ⟨S_, .f32⟩
  | .hbm, ⟨24, _⟩ => ⟨S200000, .f32⟩
  | .hbm, ⟨25, _⟩ => ⟨S200000, .i1⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S1x256, .f32⟩
  | .hbm, ⟨31, _⟩ => ⟨S200000x256, .f32⟩
  | .hbm, ⟨32, _⟩ => ⟨S200000x256, .f32⟩
  | .hbm, ⟨33, _⟩ => ⟨S_, .f32⟩
  | .hbm, ⟨34, _⟩ => ⟨S_, .f32⟩
  | .hbm, ⟨35, _⟩ => ⟨S200000x256, .f32⟩
  | .hbm, ⟨36, _⟩ => ⟨S200000x256, .f32⟩
  | .hbm, ⟨37, _⟩ => ⟨S_, .f32⟩
  | .hbm, ⟨38, _⟩ => ⟨S200000, .f32⟩
  | .hbm, ⟨39, _⟩ => ⟨S200000, .f32⟩
  | .hbm, ⟨40, _⟩ => ⟨S200000x1, .f32⟩
  | .hbm, ⟨41, _⟩ => ⟨S200000x256, .f32⟩
  | .hbm, ⟨42, _⟩ => ⟨S200000x256, .f32⟩
  | .hbm, ⟨43, _⟩ => ⟨S_, .f32⟩
  | .hbm, ⟨44, _⟩ => ⟨S_, .f32⟩
  | .hbm, ⟨45, _⟩ => ⟨S200000x256, .f32⟩
  | .hbm, ⟨46, _⟩ => ⟨S200000x256, .f32⟩
  | .hbm, ⟨47, _⟩ => ⟨S200000x256, .f32⟩
  | .hbm, ⟨48, _⟩ => ⟨S_, .f32⟩
  | .hbm, ⟨49, _⟩ => ⟨S200000, .f32⟩
  | .hbm, ⟨50, _⟩ => ⟨S200000, .f32⟩
  | .hbm, ⟨51, _⟩ => ⟨S_, .f32⟩
  | .hbm, ⟨52, _⟩ => ⟨S200000, .f32⟩
  | .hbm, ⟨53, _⟩ => ⟨S200000, .i1⟩
  | .hbm, ⟨54, _⟩ => ⟨S_, .f32⟩
  | .hbm, ⟨55, _⟩ => ⟨S_, .f32⟩
  | .hbm, ⟨56, _⟩ => ⟨S200000, .f32⟩
  | .hbm, ⟨57, _⟩ => ⟨S200000, .f32⟩
  | .hbm, ⟨58, _⟩ => ⟨S_, .f32⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_call3_v0 : Ref sig .tc := ⟨.hbm, 55, rfl⟩
abbrev main_call3_v1 : Ref sig .tc := ⟨.hbm, 56, rfl⟩
abbrev main_v33 : Ref sig .tc := ⟨.hbm, 57, rfl⟩
abbrev main_cst_12 : Ref sig .tc := ⟨.hbm, 58, rfl⟩
abbrev main_v34 : Ref sig .tc := ⟨.hbm, 59, rfl⟩
abbrev main_v35 : Ref sig .tc := ⟨.hbm, 60, rfl⟩
abbrev main_cst_13 : Ref sig .tc := ⟨.hbm, 61, rfl⟩
abbrev main_v36 : Ref sig .tc := ⟨.hbm, 62, rfl⟩
abbrev main_cst_14 : Ref sig .tc := ⟨.hbm, 63, rfl⟩
abbrev main_v37 : Ref sig .tc := ⟨.hbm, 64, rfl⟩
abbrev main_v38 : Ref sig .tc := ⟨.hbm, 65, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S_S200000x256 : S_.BroadcastsInDim S200000x256 (![] : Fin 0 → Fin S200000x256.rank)
  natLt_1_32 : 1 < 32
  reducesTo_S200000x256_S200000_d1 : S200000x256.ReducesTo [1] S200000
  h_S_ : 0 < S_.numel
  bcast_S_S200000 : S_.BroadcastsInDim S200000 (![] : Fin 0 → Fin S200000.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S200000_S200000x1_0 : S200000.BroadcastsInDim S200000x1 (![0] : Fin 1 → Fin S200000x1.rank)
  bcast_S200000x1_S200000x256_0_1 : S200000x1.BroadcastsInDim S200000x256 (![0, 1] : Fin 2 → Fin S200000x256.rank)
  reducesTo_S200000_S_d0 : S200000.ReducesTo [0] S_
  reducesTo_S256_S_d0 : S256.ReducesTo [0] S_

variable [Facts₀]

class Facts : Prop extends Facts₀ where

variable [Facts]
-- ==== Proof.RefRun.lean ====
/-
  The reference program's run, read back as one staged term of its two arguments.

  The reference computes, from the labels `Y` (200000 rows of 256 entries) and the parameters `θ` (256 entries):
  the weights `α = 1 - 1 / (1 + exp (-(θ - 5)))`; per entry the mask `Y ≠ -1`; per row the count of unmasked entries
  (summed as 32-bit integers, then converted), the guarded count (the count where it is positive, else 1), the masked products
  `z = Y · α` (zero off the mask), their mean `μ = (∑ z) / guarded count`, the masked deviations `z - μ` (zero off the mask),
  and the row's term `(∑ deviation²) / guarded count` where the count is positive, else zero; the result is the sum of the rows'
  terms plus `1e-4 · ∑ θ²`.  Each stage below is that operation of the stages before it, spelled with the program's own
  operations, and `run` says every execution of the program ends with the result buffer at the last stage.
-/
import proofs.«176106_j65575560675889_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 64 operations, in order (a called function's operations stand in its call's place, spelt `TRef.…`). -/
abbrev ops : List (HloOp τ sig (Elt F)) :=
  [ nullary main_cst (constant S_ .f32 0x40A00000#32),
    unary main_cst main_v0 (broadcastInDim S256 ![] bcast_S_S256 : (⟨S_, .f32⟩ : BufTy).Contents (Elt F) → (⟨S256, .f32⟩ : BufTy).Contents (Elt F)),
    binary main_arg1 main_v0 main_v1 (subf : (⟨S256, .f32⟩ : BufTy).Contents (Elt F) → (⟨S256, .f32⟩ : BufTy).Contents (Elt F) → (⟨S256, .f32⟩ : BufTy).Contents (Elt F)),
    unary main_v1 main_v2 (Host.negf : (⟨S256, .f32⟩ : BufTy).Contents (Elt F) → (⟨S256, .f32⟩ : BufTy).Contents (Elt F)),
    unary main_v2 main_v3 (Host.exp : (⟨S256, .f32⟩ : BufTy).Contents (Elt F) → (⟨S256, .f32⟩ : BufTy).Contents (Elt F)),
    nullary main_cst_0 (constant S_ .f32 0x3F800000#32),
    unary main_cst_0 main_v4 (broadcastInDim S256 ![] bcast_S_S256 : (⟨S_, .f32⟩ : BufTy).Contents (Elt F) → (⟨S256, .f32⟩ : BufTy).Contents (Elt F)),
    binary main_v4 main_v3 main_v5 (addf : (⟨S256, .f32⟩ : BufTy).Contents (Elt F) → (⟨S256, .f32⟩ : BufTy).Contents (Elt F) → (⟨S256, .f32⟩ : BufTy).Contents (Elt F)),
    nullary main_cst_1 (constant S_ .f32 0x3F800000#32),
    unary main_cst_1 main_v6 (broadcastInDim S256 ![] bcast_S_S256 : (⟨S_, .f32⟩ : BufTy).Contents (Elt F) → (⟨S256, .f32⟩ : BufTy).Contents (Elt F)),
    binary main_v6 main_v5 main_v7 (Host.divf : (⟨S256, .f32⟩ : BufTy).Contents (Elt F) → (⟨S256, .f32⟩ : BufTy).Contents (Elt F) → (⟨S256, .f32⟩ : BufTy).Contents (Elt F)),
    nullary main_cst_2 (constant S_ .f32 0x3F800000#32),
    unary main_cst_2 main_v8 (broadcastInDim S256 ![] bcast_S_S256 : (⟨S_, .f32⟩ : BufTy).Contents (Elt F) → (⟨S256, .f32⟩ : BufTy).Contents (Elt F)),
    binary main_v8 main_v7 main_v9 (subf : (⟨S256, .f32⟩ : BufTy).Contents (Elt F) → (⟨S256, .f32⟩ : BufTy).Contents (Elt F) → (⟨S256, .f32⟩ : BufTy).Contents (Elt F)),
    nullary main_cst_3 (constant S_ .f32 0xBF800000#32),
    unary main_cst_3 main_v10 (broadcastInDim S200000x256 ![] bcast_S_S200000x256 : (⟨S_, .f32⟩ : BufTy).Contents (Elt F) → (⟨S200000x256, .f32⟩ : BufTy).Contents (Elt F)),
    binary main_arg0 main_v10 main_v11 (cmpf .une : (⟨S200000x256, .f32⟩ : BufTy).Contents (Elt F) → (⟨S200000x256, .f32⟩ : BufTy).Contents (Elt F) → (⟨S200000x256, .i1⟩ : BufTy).Contents (Elt F)),
    unary main_v11 main_v12 ((extui 32 · natLt_1_32) : (⟨S200000x256, .i1⟩ : BufTy).Contents (Elt F) → (⟨S200000x256, .i32⟩ : BufTy).Contents (Elt F)),
    nullary main_c (constantI S_ 32 0#32),
    binary main_v12 main_c main_v13 ((fun x v => Host.reduce IntOp.addi x v reducesTo_S200000x256_S200000_d1 h_S_) : (⟨S200000x256, .i32⟩ : BufTy).Contents (Elt F) → (⟨S_, .i32⟩ : BufTy).Contents (Elt F) → (⟨S200000, .i32⟩ : BufTy).Contents (Elt F)),
    unary main_v13 main_v14 (sitofp .f32 : (⟨S200000, .i32⟩ : BufTy).Contents (Elt F) → (⟨S200000, .f32⟩ : BufTy).Contents (Elt F)),
    nullary main_cst_4 (constant S_ .f32 0x00000000#32),
    unary main_cst_4 main_v15 (broadcastInDim S200000 ![] bcast_S_S200000 : (⟨S_, .f32⟩ : BufTy).Contents (Elt F) → (⟨S200000, .f32⟩ : BufTy).Contents (Elt F)),
    binary main_v14 main_v15 main_v16 (cmpf .ogt : (⟨S200000, .f32⟩ : BufTy).Contents (Elt F) → (⟨S200000, .f32⟩ : BufTy).Contents (Elt F) → (⟨S200000, .i1⟩ : BufTy).Contents (Elt F)),
    nullary main_cst_5 (constant S_ .f32 0x3F800000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S200000, .f32⟩) main_call0_v1) (broadcastInDim S200000 ![] bcast_S_S200000),
    TRef.ternary (TRef.of (T := ⟨S200000, .i1⟩) main_v16) (TRef.of (T := ⟨S200000, .f32⟩) main_v14) (TRef.of (T := ⟨S200000, .f32⟩) main_call0_v1) (TRef.of (T := ⟨S200000, .f32⟩) main_v17) select,
    unary main_v9 main_v18 (broadcastInDim S1x256 ![1] bcast_S256_S1x256_1 : (⟨S256, .f32⟩ : BufTy).Contents (Elt F) → (⟨S1x256, .f32⟩ : BufTy).Contents (Elt F)),
    unary main_v18 main_v19 (broadcastInDim S200000x256 ![0, 1] bcast_S1x256_S200000x256_0_1 : (⟨S1x256, .f32⟩ : BufTy).Contents (Elt F) → (⟨S200000x256, .f32⟩ : BufTy).Contents (Elt F)),
    binary main_arg0 main_v19 main_v20 (mulf : (⟨S200000x256, .f32⟩ : BufTy).Contents (Elt F) → (⟨S200000x256, .f32⟩ : BufTy).Contents (Elt F) → (⟨S200000x256, .f32⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S200000x256, .f32⟩) main_call1_v1) (broadcastInDim S200000x256 ![] bcast_S_S200000x256),
    TRef.ternary (TRef.of (T := ⟨S200000x256, .i1⟩) main_v11) (TRef.of (T := ⟨S200000x256, .f32⟩) main_v20) (TRef.of (T := ⟨S200000x256, .f32⟩) main_call1_v1) (TRef.of (T := ⟨S200000x256, .f32⟩) main_v21) select,
    nullary main_cst_7 (constant S_ .f32 0x00000000#32),
    binary main_v21 main_cst_7 main_v22 ((fun x v => Host.reduceAdd x v reducesTo_S200000x256_S200000_d1 h_S_) : (⟨S200000x256, .f32⟩ : BufTy).Contents (Elt F) → (⟨S_, .f32⟩ : BufTy).Contents (Elt F) → (⟨S200000, .f32⟩ : BufTy).Contents (Elt F)),
    binary main_v22 main_v17 main_v23 (Host.divf : (⟨S200000, .f32⟩ : BufTy).Contents (Elt F) → (⟨S200000, .f32⟩ : BufTy).Contents (Elt F) → (⟨S200000, .f32⟩ : BufTy).Contents (Elt F)),
    unary main_v23 main_v24 (broadcastInDim S200000x1 ![0] bcast_S200000_S200000x1_0 : (⟨S200000, .f32⟩ : BufTy).Contents (Elt F) → (⟨S200000x1, .f32⟩ : BufTy).Contents (Elt F)),
    unary main_v24 main_v25 (broadcastInDim S200000x256 ![0, 1] bcast_S200000x1_S200000x256_0_1 : (⟨S200000x1, .f32⟩ : BufTy).Contents (Elt F) → (⟨S200000x256, .f32⟩ : BufTy).Contents (Elt F)),
    binary main_v21 main_v25 main_v26 (subf : (⟨S200000x256, .f32⟩ : BufTy).Contents (Elt F) → (⟨S200000x256, .f32⟩ : BufTy).Contents (Elt F) → (⟨S200000x256, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S200000x256, .f32⟩) main_call2_v1) (broadcastInDim S200000x256 ![] bcast_S_S200000x256),
    TRef.ternary (TRef.of (T := ⟨S200000x256, .i1⟩) main_v11) (TRef.of (T := ⟨S200000x256, .f32⟩) main_v26) (TRef.of (T := ⟨S200000x256, .f32⟩) main_call2_v1) (TRef.of (T := ⟨S200000x256, .f32⟩) main_v27) select,
    binary main_v27 main_v27 main_v28 (mulf : (⟨S200000x256, .f32⟩ : BufTy).Contents (Elt F) → (⟨S200000x256, .f32⟩ : BufTy).Contents (Elt F) → (⟨S200000x256, .f32⟩ : BufTy).Contents (Elt F)),
    nullary main_cst_9 (constant S_ .f32 0x00000000#32),
    binary main_v28 main_cst_9 main_v29 ((fun x v => Host.reduceAdd x v reducesTo_S200000x256_S200000_d1 h_S_) : (⟨S200000x256, .f32⟩ : BufTy).Contents (Elt F) → (⟨S_, .f32⟩ : BufTy).Contents (Elt F) → (⟨S200000, .f32⟩ : BufTy).Contents (Elt F)),
    binary main_v29 main_v17 main_v30 (Host.divf : (⟨S200000, .f32⟩ : BufTy).Contents (Elt F) → (⟨S200000, .f32⟩ : BufTy).Contents (Elt F) → (⟨S200000, .f32⟩ : BufTy).Contents (Elt F)),
    nullary main_cst_10 (constant S_ .f32 0x00000000#32),
    unary main_cst_10 main_v31 (broadcastInDim S200000 ![] bcast_S_S200000 : (⟨S_, .f32⟩ : BufTy).Contents (Elt F) → (⟨S200000, .f32⟩ : BufTy).Contents (Elt F)),
    binary main_v14 main_v31 main_v32 (cmpf .ogt : (⟨S200000, .f32⟩ : BufTy).Contents (Elt F) → (⟨S200000, .f32⟩ : BufTy).Contents (Elt F) → (⟨S200000, .i1⟩ : BufTy).Contents (Elt F)),
    nullary main_cst_11 (constant S_ .f32 0x00000000#32),
    TRef.unary (TRef.of (T := ⟨S_, .f32⟩) main_cst_11) (TRef.of (T := ⟨S_, .f32⟩) main_call3_v0) id,
    TRef.unary (TRef.of (T := ⟨S_, .f32⟩) main_call3_v0) (TRef.of (T := ⟨S200000, .f32⟩) main_call3_v1) (broadcastInDim S200000 ![] bcast_S_S200000),
    TRef.ternary (TRef.of (T := ⟨S200000, .i1⟩) main_v32) (TRef.of (T := ⟨S200000, .f32⟩) main_v30) (TRef.of (T := ⟨S200000, .f32⟩) main_call3_v1) (TRef.of (T := ⟨S200000, .f32⟩) main_v33) select,
    nullary main_cst_12 (constant S_ .f32 0x00000000#32),
    binary main_v33 main_cst_12 main_v34 ((fun x v => Host.reduceAdd x v reducesTo_S200000_S_d0 h_S_) : (⟨S200000, .f32⟩ : BufTy).Contents (Elt F) → (⟨S_, .f32⟩ : BufTy).Contents (Elt F) → (⟨S_, .f32⟩ : BufTy).Contents (Elt F)),
    binary main_arg1 main_arg1 main_v35 (mulf : (⟨S256, .f32⟩ : BufTy).Contents (Elt F) → (⟨S256, .f32⟩ : BufTy).Contents (Elt F) → (⟨S256, .f32⟩ : BufTy).Contents (Elt F)),
    nullary main_cst_13 (constant S_ .f32 0x00000000#32),
    binary main_v35 main_cst_13 main_v36 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_14 (constant S_ .f32 0x38D1B717#32),
    binary main_cst_14 main_v36 main_v37 (mulf : (⟨S_, .f32⟩ : BufTy).Contents (Elt F) → (⟨S_, .f32⟩ : BufTy).Contents (Elt F) → (⟨S_, .f32⟩ : BufTy).Contents (Elt F)),
    binary main_v34 main_v37 main_v38 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., unary_bufs_sub .., ternary_bufs_sub .., nullary_bufs_sub .., binary_bufs_sub .., binary_bufs_sub .., unary_bufs_sub .., unary_bufs_sub .., binary_bufs_sub .., nullary_bufs_sub .., unary_bufs_sub .., unary_bufs_sub .., ternary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., binary_bufs_sub .., nullary_bufs_sub .., binary_bufs_sub .., nullary_bufs_sub .., binary_bufs_sub .., binary_bufs_sub ..⟩

/-! ## The stages -/

/-- The weights `α = 1 - 1 / (1 + exp (-(θ - 5)))`. -/
def alphaV (θ : FVec F S256 .f32) : FVec F S256 .f32 :=
  subf (broadcastInDim S256 ![] bcast_S_S256 (constant S_ .f32 0x3F800000#32))
    (Host.divf (broadcastInDim S256 ![] bcast_S_S256 (constant S_ .f32 0x3F800000#32))
      (addf (broadcastInDim S256 ![] bcast_S_S256 (constant S_ .f32 0x3F800000#32))
        (Host.exp (Host.negf (subf θ (broadcastInDim S256 ![] bcast_S_S256 (constant S_ .f32 0x40A00000#32)))))))

/-- The mask: an entry differs from `-1`. -/
def maskV (Y : FVec F S200000x256 .f32) : IVec S200000x256 1 :=
  cmpf .une Y (broadcastInDim S200000x256 ![] bcast_S_S200000x256 (constant S_ .f32 0xBF800000#32))

/-- A row's count of unmasked entries: summed as 32-bit integers, then converted. -/
def cntV (Y : FVec F S200000x256 .f32) : FVec F S200000 .f32 :=
  sitofp .f32 (Host.reduce IntOp.addi (extui 32 (maskV Y) natLt_1_32) (constantI S_ 32 0#32) reducesTo_S200000x256_S200000_d1 h_S_)

/-- The count is positive. -/
def posV (Y : FVec F S200000x256 .f32) : IVec S200000 1 :=
  cmpf .ogt (cntV Y) (broadcastInDim S200000 ![] bcast_S_S200000 (constant S_ .f32 0x00000000#32))

/-- The guarded count: the count where positive, else `1`. -/
def safeV (Y : FVec F S200000x256 .f32) : FVec F S200000 .f32 :=
  select (posV Y) (cntV Y) (broadcastInDim S200000 ![] bcast_S_S200000 (id (constant S_ .f32 0x3F800000#32)))

/-- The masked products `z = Y · α`, zero off the mask. -/
def zV (Y : FVec F S200000x256 .f32) (θ : FVec F S256 .f32) : FVec F S200000x256 .f32 :=
  select (maskV Y)
    (mulf Y (broadcastInDim S200000x256 ![0, 1] bcast_S1x256_S200000x256_0_1 (broadcastInDim S1x256 ![1] bcast_S256_S1x256_1 (alphaV θ))))
    (broadcastInDim S200000x256 ![] bcast_S_S200000x256 (id (constant S_ .f32 0x00000000#32)))

/-- A row's mean `μ = (∑ z) / guarded count`. -/
def muV (Y : FVec F S200000x256 .f32) (θ : FVec F S256 .f32) : FVec F S200000 .f32 :=
  Host.divf (Host.reduceAdd (zV Y θ) (constant S_ .f32 0x00000000#32) reducesTo_S200000x256_S200000_d1 h_S_) (safeV Y)

/-- The masked deviations `z - μ`, zero off the mask. -/
def tV (Y : FVec F S200000x256 .f32) (θ : FVec F S256 .f32) : FVec F S200000x256 .f32 :=
  select (maskV Y)
    (subf (zV Y θ) (broadcastInDim S200000x256 ![0, 1] bcast_S200000x1_S200000x256_0_1 (broadcastInDim S200000x1 ![0] bcast_S200000_S200000x1_0 (muV Y θ))))
    (broadcastInDim S200000x256 ![] bcast_S_S200000x256 (id (constant S_ .f32 0x00000000#32)))

/-- A row's term: `(∑ deviation²) / guarded count` where the count is positive, else zero. -/
def diV (Y : FVec F S200000x256 .f32) (θ : FVec F S256 .f32) : FVec F S200000 .f32 :=
  select (posV Y)
    (Host.divf (Host.reduceAdd (mulf (tV Y θ) (tV Y θ)) (constant S_ .f32 0x00000000#32) reducesTo_S200000x256_S200000_d1 h_S_) (safeV Y))
    (broadcastInDim S200000 ![] bcast_S_S200000 (id (constant S_ .f32 0x00000000#32)))

/-- The regulariser `1e-4 · ∑ θ²` (the literal is the program's word for `1e-4`). -/
def tailV (θ : FVec F S256 .f32) : FVec F S_ .f32 :=
  mulf (constant S_ .f32 0x38D1B717#32) (Host.reduceAdd (mulf θ θ) (constant S_ .f32 0x00000000#32) reducesTo_S256_S_d0 h_S_)

/-- The result: the sum of the rows' terms plus the regulariser. -/
def resV (Y : FVec F S200000x256 .f32) (θ : FVec F S256 .f32) : FVec F S_ .f32 :=
  addf (Host.reduceAdd (diV Y θ) (constant S_ .f32 0x00000000#32) reducesTo_S200000_S_d0 h_S_) (tailV θ)

set_option maxRecDepth 8192 in
set_option maxHeartbeats 25600000 in
/-- On every device, for any float values, from any memory with zero counters: every weakly fair execution of
    @main terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = resV (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v38).trans (by
        after_results_simp <;> first | rfl | (unfold resV tailV diV tV muV zV safeV posV cntV maskV alphaV; rfl)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HandRun

end
-- ==== Proof.RowLaw.lean ====
/-
  The one algebraic law of this certificate, over the reals: for a finite family of reals z_k
  with mean mu = (sum z) / c over a count c that is not zero, where the terms off a set M are zero
  and c is the size of M, the mean of squared deviations over M equals the mean of squares minus
  the squared mean:  (sum_{k in M} (z_k - mu)^2) / c = (sum_k z_k^2) / c - mu^2.
-/
import Mathlib

namespace Cert.RowLaw

open Finset

/-- Variance identity over a finite index type: the terms off `M` vanish and `c = |M| ≠ 0`. -/
theorem variance_identity {ι : Type*} [Fintype ι] [DecidableEq ι] (M : Finset ι) (z : ι → ℝ)
    (hz : ∀ k, k ∉ M → z k = 0) (c : ℝ) (hc : c = (M.card : ℝ)) (hc0 : c ≠ 0) :
    (∑ k, (if k ∈ M then (z k - (∑ j, z j) / c) else 0) * (if k ∈ M then (z k - (∑ j, z j) / c) else 0)) / c
      = (∑ k, z k * z k) / c - ((∑ j, z j) / c) * ((∑ j, z j) / c) := by
  set S := ∑ j, z j with hS
  have h1 : ∑ k, (if k ∈ M then (z k - S / c) else 0) * (if k ∈ M then (z k - S / c) else 0)
      = ∑ k ∈ M, (z k - S / c) * (z k - S / c) := by
    rw [← Finset.sum_filter_add_sum_filter_not Finset.univ (· ∈ M)]
    have : ∑ k ∈ Finset.univ.filter (fun k => ¬ k ∈ M), (if k ∈ M then (z k - S / c) else 0) * (if k ∈ M then (z k - S / c) else 0) = 0 := by
      apply Finset.sum_eq_zero
      intro k hk
      rw [Finset.mem_filter] at hk
      simp [hk.2]
    rw [this, add_zero]
    have hf : Finset.univ.filter (· ∈ M) = M := by ext k; simp
    rw [hf]
    apply Finset.sum_congr rfl
    intro k hk
    simp [hk]
  have h2 : ∑ k, z k * z k = ∑ k ∈ M, z k * z k := by
    symm
    apply Finset.sum_subset (Finset.subset_univ M)
    intro k _ hk
    rw [hz k hk, mul_zero]
  have h3 : S = ∑ k ∈ M, z k := by
    rw [hS]; symm
    apply Finset.sum_subset (Finset.subset_univ M)
    intro k _ hk
    exact hz k hk
  rw [h1, h2]
  have h4 : ∑ k ∈ M, (z k - S / c) * (z k - S / c)
      = ∑ k ∈ M, z k * z k - 2 * (S / c) * ∑ k ∈ M, z k + (M.card : ℝ) * ((S / c) * (S / c)) := by
    have : ∀ k ∈ M, (z k - S / c) * (z k - S / c) = z k * z k - 2 * (S / c) * z k + (S / c) * (S / c) := by
      intro k _; ring
    rw [Finset.sum_congr rfl this, Finset.sum_add_distrib, Finset.sum_sub_distrib, ← Finset.mul_sum,
      Finset.sum_const, nsmul_eq_mul]
  rw [h4, ← h3, ← hc]
  field_simp
  ring

end Cert.RowLaw
-- ==== Proof.RowSpec.lean ====
/-
  One row of labels against the weights: what the kernel computes for it, what the reference computes for it, and that the two
  agree when the row's entries and the weights are real numbers.

  For a row `y` (256 entries) and weights `a`: the mask `M` is the set of entries different from `-1`; the count `c` is the
  size of `M`; `z k = y k · a k` on `M` and `0` off it.  Where `c = 0` both programs give `0`.  Where `c > 0`, with the mean
  `μ = (∑ z) / c`, the kernel gives `(∑ z²) / c - μ²` and the reference `(∑_{k ∈ M} (z k - μ)²) / c`.
  The kernel counts by converting each mask bit to a float and summing; the reference sums the bits as 32-bit integers
  (at most 256 of them, so nothing wraps) and converts the total: both are the size of `M`.
  The two row values are equal by the variance identity, which needs the entries to be finite: it cancels terms.
-/
import Idealize.ShloMosaic.PureOps.Ideal.Laws
import Idealize.ShloMosaic.Lib.ValueIdx
import proofs.«176106_j65575560675889_2_alg».proof.Proof.RowLaw

noncomputable section

namespace Cert.RowSpec

open Idealize.ShloMosaic

/-- The words the two programs share: `-1.0`, `+0.0`, `1.0`. -/
abbrev wM1 : EReal := Ideal.ofBits .f32 0xBF800000#32
abbrev wZ : EReal := Ideal.ofBits .f32 0x00000000#32
abbrev wOne : EReal := Ideal.ofBits .f32 0x3F800000#32

theorem wZ_eq : wZ = 0 := Ideal.ofBits_zero_f32

/-- The mask bit of an entry: it differs from `-1`. -/
def mbit (y : EReal) : BitVec 1 := Ideal.cmp .one y wM1
/-- The mask bit widened to a 32-bit word. -/
def cword (y : EReal) : BitVec 32 := (mbit y).setWidth 32
/-- The masked product. -/
def zval (y a : EReal) : EReal := Scalar.select (mbit y) (y * a) wZ

theorem mbit_eq (y : EReal) : mbit y = if y = wM1 then 0#1 else 1#1 := by
  unfold mbit Ideal.cmp
  by_cases h : y = wM1
  · simp [h]
  · simp [h]

theorem cword_eq (y : EReal) : cword y = if y = wM1 then 0#32 else 1#32 := by
  unfold cword
  rw [mbit_eq]
  split <;> rfl

theorem cword_toNat (y : EReal) : (cword y).toNat = if y = wM1 then 0 else 1 := by
  rw [cword_eq]; split <;> rfl

theorem cword_toInt (y : EReal) : (cword y).toInt = if y = wM1 then 0 else 1 := by
  rw [cword_eq]; split <;> rfl

theorem zval_eq (y a : EReal) : zval y a = if y = wM1 then 0 else y * a := by
  unfold zval Scalar.select
  rw [mbit_eq, wZ_eq]
  by_cases h : y = wM1
  · simp [h]
  · simp [h]

/-- The kernel's count: each mask word converted, then summed. -/
def cntK (y : Fin 256 → EReal) : EReal := ∑ k, (((cword (y k)).toInt : ℝ) : EReal)
/-- The reference's count: the mask words summed as 32-bit integers, then converted. -/
def cntR (y : Fin 256 → EReal) : EReal :=
  ((((Finset.univ : Finset (Fin 256)).fold IntOp.addi 0#32 (fun k => cword (y k))).toInt : ℝ) : EReal)

/-- The mask of a row. -/
def maskSet (y : Fin 256 → EReal) : Finset (Fin 256) := Finset.univ.filter (fun k => y k ≠ wM1)

/-- The coercion of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cntK_eq (y : Fin 256 → EReal) : cntK y = (((maskSet y).card : ℝ) : EReal) := by
  unfold cntK maskSet
  rw [Finset.card_filter, Nat.cast_sum, coe_sum]
  refine Finset.sum_congr rfl fun k _ => ?_
  rw [cword_toInt]
  by_cases h : y k = wM1
  · simp [h]
  · simp [h]

/-- Summing at most 256 words that are each 0 or 1 does not wrap: the fold's value is the number of ones. -/
theorem fold_cword_toNat (y : Fin 256 → EReal) (s : Finset (Fin 256)) :
    (s.fold IntOp.addi 0#32 (fun k => cword (y k))).toNat = (s.filter (fun k => y k ≠ wM1)).card := by
  classical
  induction s using Finset.induction_on with
  | empty => rfl
  | insert a s ha ih =>
    rw [Finset.fold_insert ha, Finset.filter_insert]
    have hle : (s.filter (fun k => y k ≠ wM1)).card ≤ 256 :=
      le_trans (Finset.card_le_card (Finset.filter_subset _ _)) (by simpa using Finset.card_le_univ s)
    show (cword (y a) + s.fold IntOp.addi 0#32 (fun k => cword (y k))).toNat = _
    rw [BitVec.toNat_add, ih, cword_toNat]
    by_cases h : y a = wM1
    · have hn : ¬ (y a ≠ wM1) := fun h' => h' h
      rw [if_pos h, if_neg hn]; omega
    · rw [if_neg h, if_pos h, Finset.card_insert_of_notMem (fun hm => ha (Finset.mem_of_mem_filter _ hm))]; omega

theorem cntR_eq (y : Fin 256 → EReal) : cntR y = (((maskSet y).card : ℝ) : EReal) := by
  unfold cntR maskSet
  have h := fold_cword_toNat y Finset.univ
  have hle : (Finset.univ.filter (fun k => y k ≠ wM1)).card ≤ 256 :=
    le_trans (Finset.card_le_card (Finset.filter_subset _ _)) (by simp)
  generalize (Finset.univ : Finset (Fin 256)).fold IntOp.addi 0#32 (fun k => cword (y k)) = w at h ⊢
  generalize (Finset.univ.filter (fun k => y k ≠ wM1)).card = n at h hle ⊢
  have hI : w.toInt = (n : ℤ) := by
    rw [BitVec.toInt_eq_toNat_cond]
    split <;> omega
  rw [hI]; norm_cast

/-- The count is positive. -/
def pos (cnt : EReal) : BitVec 1 := Ideal.cmp .ogt cnt wZ
/-- The guarded count. -/
def safe (cnt : EReal) : EReal := Scalar.select (pos cnt) cnt wOne

theorem pos_coe (c : ℕ) : pos ((c : ℝ) : EReal) = if c = 0 then 0#1 else 1#1 := by
  unfold pos Ideal.cmp
  rw [wZ_eq]
  by_cases h : c = 0
  · subst h; simp
  · have : (0 : EReal) < ((c : ℝ) : EReal) := by
      exact_mod_cast Nat.pos_of_ne_zero h
    have hpos : 0 < c := Nat.pos_of_ne_zero h
    simp [h, this, hpos]

def sumZ (y a : Fin 256 → EReal) : EReal := ∑ k, zval (y k) (a k)
def sumZZ (y a : Fin 256 → EReal) : EReal := ∑ k, zval (y k) (a k) * zval (y k) (a k)

/-- The kernel's value for a row. -/
def rowK (y a : Fin 256 → EReal) : EReal :=
  Scalar.select (pos (cntK y))
    (Ideal.div (sumZZ y a) (safe (cntK y)) - Ideal.div (sumZ y a) (safe (cntK y)) * Ideal.div (sumZ y a) (safe (cntK y))) wZ

/-- The reference's mean of a row. -/
def muR (y a : Fin 256 → EReal) : EReal := Ideal.div (wZ + sumZ y a) (safe (cntR y))
/-- The reference's masked deviation. -/
def dev (y a : Fin 256 → EReal) (k : Fin 256) : EReal := Scalar.select (mbit (y k)) (zval (y k) (a k) - muR y a) wZ
/-- The reference's value for a row. -/
def rowR (y a : Fin 256 → EReal) : EReal :=
  Scalar.select (pos (cntR y)) (Ideal.div (wZ + ∑ k, dev y a k * dev y a k) (safe (cntR y))) wZ

/-- The row law: on real entries and weights the two values agree. -/
theorem rowK_eq_rowR (y a : Fin 256 → EReal) (hy : ∀ k, ∃ r : ℝ, y k = (r : EReal)) (ha : ∀ k, ∃ r : ℝ, a k = (r : EReal)) :
    rowK y a = rowR y a := by
  classical
  choose yr hyr using hy
  choose ar har using ha
  unfold rowK rowR
  rw [cntK_eq, cntR_eq, pos_coe]
  by_cases hc : (maskSet y).card = 0
  · rw [if_pos hc]; rfl
  · rw [if_neg hc]
    have hc0 : (((maskSet y).card : ℝ)) ≠ 0 := by exact_mod_cast hc
    have hsafe : safe (((maskSet y).card : ℝ) : EReal) = (((maskSet y).card : ℝ) : EReal) := by
      unfold safe; rw [pos_coe, if_neg hc]; rfl
    -- the masked products are reals
    let zr : Fin 256 → ℝ := fun k => if k ∈ maskSet y then yr k * ar k else 0
    have hz : ∀ k, zval (y k) (a k) = ((zr k : ℝ) : EReal) := by
      intro k
      rw [zval_eq]
      by_cases h : y k = wM1
      · have : k ∉ maskSet y := by unfold maskSet; simp [h]
        simp [zr, h, this]
      · have : k ∈ maskSet y := by unfold maskSet; simp [h]
        simp only [zr, if_neg h, if_pos this]
        rw [hyr k, har k, EReal.coe_mul]
    have hzoff : ∀ k, k ∉ maskSet y → zr k = 0 := fun k hk => by simp [zr, hk]
    have hS1 : sumZ y a = ((∑ k, zr k : ℝ) : EReal) := by
      unfold sumZ; rw [coe_sum]; exact Finset.sum_congr rfl fun k _ => hz k
    have hS2 : sumZZ y a = ((∑ k, zr k * zr k : ℝ) : EReal) := by
      unfold sumZZ; rw [coe_sum]; exact Finset.sum_congr rfl fun k _ => by rw [hz k, EReal.coe_mul]
    have hmu : muR y a = (((∑ k, zr k) / ((maskSet y).card : ℝ) : ℝ) : EReal) := by
      unfold muR
      rw [cntR_eq, hsafe, Ideal.div_coe hc0, hS1, wZ_eq, zero_add, ← EReal.coe_mul, mul_one_div]
    have hdev : ∀ k, dev y a k = (((if k ∈ maskSet y then zr k - (∑ j, zr j) / ((maskSet y).card : ℝ) else 0 : ℝ)) : EReal) := by
      intro k
      unfold dev Scalar.select
      rw [mbit_eq, wZ_eq, hmu, hz k]
      by_cases h : y k = wM1
      · have : k ∉ maskSet y := by unfold maskSet; simp [h]
        simp [h, this]
      · have : k ∈ maskSet y := by unfold maskSet; simp [h]
        simp only [if_neg h, if_pos this]
        rw [← EReal.coe_sub]; simp
    have hD : (∑ k, dev y a k * dev y a k)
        = ((∑ k, (if k ∈ maskSet y then zr k - (∑ j, zr j) / ((maskSet y).card : ℝ) else 0)
            * (if k ∈ maskSet y then zr k - (∑ j, zr j) / ((maskSet y).card : ℝ) else 0) : ℝ) : EReal) := by
      rw [coe_sum]; exact Finset.sum_congr rfl fun k _ => by rw [hdev k, EReal.coe_mul]
    refine congrArg (fun x => Scalar.select 1#1 x wZ) ?_
    rw [hsafe, hD, hS1, hS2, wZ_eq, zero_add, Ideal.div_coe hc0, Ideal.div_coe hc0, Ideal.div_coe hc0,
      ← EReal.coe_mul, ← EReal.coe_mul, ← EReal.coe_mul, ← EReal.coe_mul, ← EReal.coe_sub, mul_one_div, mul_one_div, mul_one_div]
    exact congrArg _ (Cert.RowLaw.variance_identity (maskSet y) zr hzoff _ rfl hc0).symm

end Cert.RowSpec

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibColReduce.lean ====
/-
  A column reduced to one cell, and a column laid out as a row: the layout steps read at an index.

  A reduction kept as a column `[a, 1]` meets a matrix `[b, a]` along its columns by being transposed to a row `[1, a]`
  and broadcast down the rows: entry `(p, c)` of the broadcast is the column's entry `c`. Summing a column `[a, 1]`
  over its first axis leaves one cell, the sum of its `a` entries; a one-entry vector cast to a `[1, 1]` block is its entry.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColReduce

open Idealize.ShloMosaic Idealize.ShloMosaic.ValueIdx

variable {α : Type}

/-- A column `[a, 1]` transposed to a row and broadcast down the `b` rows of a `[b, a]` matrix reads, at `(p, c)`,
    the column's entry `(c, 0)`. -/
theorem broadcastTo_transposed_column_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (c : Fin a) :
    broadcastTo ⟨2, ![b, a]⟩ (transpose ⟨2, ![1, a]⟩ [1, 0] v ht) hb (ix2 p c) = v (ix2 c (0 : Fin 1)) :=
  (broadcastTo_1b_ab_apply _ hb p c).trans (transpose_ix2_apply v ht (0 : Fin 1) c)

/-- Over the one cell of the reduced vector, the column index with `k` on the reduced axis is `(k, u)`. -/
theorem lift_col {a : ℕ} (h : (⟨2, ![a, 1]⟩ : Shape).Reduces [0] ⟨1, ![1]⟩) (u : Fin 1) (k : Fin a) :
    h.lift (ix1 u) k = ix2 k u :=
  funext fun c => Fin.ext (by match c with | ⟨0, _⟩ => rfl | ⟨1, _⟩ => rfl)

variable {φ : FTy}

/-- A column's sum at the extended reals: the sum over its entries. -/
theorem multiReduction_add_col {a : ℕ} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ X acc h hφ hacc (ix1 u) = ∑ k : Fin a, X (ix2 k u) := by
  rw [Ideal.multiReduction_add_single]
  exact Finset.sum_congr rfl fun k _ => congrArg X (lift_col h u k)

end Cert.ColReduce

end
-- ==== Proof.KernelTile.lean ====
/-
  One grid point's arithmetic, read at the extended reals: the body adds to the carried accumulator the sum, over the 5000
  rows of its tile, of the kernel's row value (the count of unmasked entries, the masked products, their sum and sum of
  squares, the guarded division and the selection on a positive count — one row at a time, the weights the same for every row).

  The body works on whole tiles: a [5000, 256] block of labels and the [1, 256] weights.  Its row reductions are lane sums
  kept as columns [5000, 1]; the column of row values is then summed over its 5000 entries into one cell.  Here the body's
  value is first restated as that composition (`pay_eq`, by unfolding), then each stage is read at an index.
-/
import proofs.«176106_j65575560675889_2_alg».proof.Proof.Gen.KernelIdeal.Skeleton
import proofs.«176106_j65575560675889_2_alg».proof.Proof.RowSpec
import proofs.«176106_j65575560675889_2_alg».proof.Proof.LibRowReduce
import proofs.«176106_j65575560675889_2_alg».proof.Proof.LibColReduce
import Idealize.ShloMosaic.Lib.ValueLayout
import Idealize.ShloMosaic.Lib.Pipeline.Value

noncomputable section

namespace Cert.KernelIdeal.Tile

open Idealize.ShloMosaic Idealize.ShloMosaic.ValueIdx Cert.KernelIdeal Cert.KernelIdeal.Gen Cert.RowSpec

/-- The tile's mask: an entry differs from `-1`. -/
def maskT (x0 : FVec Ideal S5000x256 .f32) : IVec S5000x256 1 :=
  cmpf .one x0 (broadcast S5000x256 (Scalar.ofBits (F := Ideal) .f32 0xBF800000#32))

/-- The tile's masked products: entry times its column's weight on the mask, zero off it. -/
def zmat (x0 : FVec Ideal S5000x256 .f32) (x1 : FVec Ideal S1x256 .f32) : FVec Ideal S5000x256 .f32 :=
  select (maskT x0)
    (mulf x0 (broadcastTo S5000x256 (shapeCast S1x256 x1 shapeCasts_S1x256_S1x256) broadcasts_S1x256_S5000x256))
    (broadcast S5000x256 (Scalar.ofBits (F := Ideal) .f32 0x00000000#32))

/-- The sums of a tile's rows, kept as a column. -/
def rowSums (X : FVec Ideal S5000x256 .f32) : FVec Ideal S5000x1 .f32 :=
  shapeCast S5000x1 (multiReduction .add [1] S5000 X 0x00000000#32 reduces_S5000x256_S5000 (.inl rfl) rfl) shapeCasts_S5000_S5000x1

/-- The rows' counts of unmasked entries: each mask bit widened and converted, then summed along the row. -/
def cntCol (x0 : FVec Ideal S5000x256 .f32) : FVec Ideal S5000x1 .f32 :=
  rowSums (sitofp .f32 (extui 32 (maskT x0) natLt_1_32))

/-- The column of row values from the columns of counts, sums and sums of squares. -/
def colTerm (c s1 s2 : FVec Ideal S5000x1 .f32) : FVec Ideal S5000x1 .f32 :=
  select (cmpf .ogt c (broadcast S5000x1 (Scalar.ofBits (F := Ideal) .f32 0x00000000#32)))
    (subf
      (divf s2 (select (cmpf .ogt c (broadcast S5000x1 (Scalar.ofBits (F := Ideal) .f32 0x00000000#32))) c (broadcast S5000x1 (Scalar.ofBits (F := Ideal) .f32 0x3F800000#32))))
      (mulf
        (divf s1 (select (cmpf .ogt c (broadcast S5000x1 (Scalar.ofBits (F := Ideal) .f32 0x00000000#32))) c (broadcast S5000x1 (Scalar.ofBits (F := Ideal) .f32 0x3F800000#32))))
        (divf s1 (select (cmpf .ogt c (broadcast S5000x1 (Scalar.ofBits (F := Ideal) .f32 0x00000000#32))) c (broadcast S5000x1 (Scalar.ofBits (F := Ideal) .f32 0x3F800000#32))))))
    (broadcast S5000x1 (Scalar.ofBits (F := Ideal) .f32 0x00000000#32))

/-- The body's value is the carried cell plus the column of row values summed into one cell. -/
theorem pay_eq (x0 : Vec Ideal S5000x256 .f32) (x1 : Vec Ideal S1x256 .f32) (v35 : Vec Ideal S1x1 .f32) :
    k0_pay4 (F := Ideal) x0 x1 v35
      = addf v35 (shapeCast S1x1 (multiReduction .add [0] S1
          (colTerm (cntCol x0) (rowSums (zmat x0 x1)) (rowSums (mulf (zmat x0 x1) (zmat x0 x1))))
          0x00000000#32 reduces_S5000x1_S1 (.inl rfl) rfl) shapeCasts_S1_S1x1) := rfl

/-- A row's sum, read in the column. -/
theorem rowSums_apply (X : FVec Ideal S5000x256 .f32) (r : Fin 5000) (u : Fin 1) :
    rowSums X (ix2 r u) = ∑ k : Fin 256, X (ix2 r k) :=
  (Cert.RowReduce.shapeCast_a_a1_apply _ shapeCasts_S5000_S5000x1 r u).trans
    (Cert.RowReduce.multiReduction_add_row X _ reduces_S5000x256_S5000 (.inl rfl) rfl r)

/-- A masked product: the entry and its column's weight. -/
theorem zmat_apply (x0 : FVec Ideal S5000x256 .f32) (x1 : FVec Ideal S1x256 .f32) (r : Fin 5000) (k : Fin 256) :
    zmat x0 x1 (ix2 r k) = zval (x0 (ix2 r k)) (x1 (ix2 (0 : Fin 1) k)) := by
  have e : broadcastTo S5000x256 (shapeCast S1x256 x1 shapeCasts_S1x256_S1x256) broadcasts_S1x256_S5000x256 (ix2 r k)
      = x1 (ix2 (0 : Fin 1) k) := by
    rw [shapeCast_self]; exact broadcastTo_1b_ab_apply x1 _ r k
  show Scalar.select (Ideal.cmp .one (x0 (ix2 r k)) wM1)
      (x0 (ix2 r k) * broadcastTo S5000x256 (shapeCast S1x256 x1 shapeCasts_S1x256_S1x256) broadcasts_S1x256_S5000x256 (ix2 r k)) wZ = _
  rw [e]; rfl

theorem zz_apply (x0 : FVec Ideal S5000x256 .f32) (x1 : FVec Ideal S1x256 .f32) (r : Fin 5000) (k : Fin 256) :
    mulf (zmat x0 x1) (zmat x0 x1) (ix2 r k)
      = zval (x0 (ix2 r k)) (x1 (ix2 (0 : Fin 1) k)) * zval (x0 (ix2 r k)) (x1 (ix2 (0 : Fin 1) k)) := by
  show zmat x0 x1 (ix2 r k) * zmat x0 x1 (ix2 r k) = _
  rw [zmat_apply]

/-- A row's count. -/
theorem cntCol_apply (x0 : FVec Ideal S5000x256 .f32) (r : Fin 5000) (u : Fin 1) :
    cntCol x0 (ix2 r u) = cntK (fun k => x0 (ix2 r k)) :=
  (rowSums_apply _ r u).trans (Finset.sum_congr rfl fun _ _ => rfl)

/-- A row's value from its count, sum and sum of squares. -/
theorem colTerm_apply (c s1 s2 : FVec Ideal S5000x1 .f32) (r : Fin 5000) (u : Fin 1) :
    colTerm c s1 s2 (ix2 r u)
      = Scalar.select (pos (c (ix2 r u)))
          (Ideal.div (s2 (ix2 r u)) (safe (c (ix2 r u)))
            - Ideal.div (s1 (ix2 r u)) (safe (c (ix2 r u))) * Ideal.div (s1 (ix2 r u)) (safe (c (ix2 r u)))) wZ := rfl

/-- The body's value at its one cell: the carried value plus the tile's rows' values. -/
theorem pay_apply (x0 : Vec Ideal S5000x256 .f32) (x1 : Vec Ideal S1x256 .f32) (v35 : Vec Ideal S1x1 .f32) (p q : Fin 1) :
    k0_pay4 (F := Ideal) x0 x1 v35 (ix2 p q)
      = v35 (ix2 p q) + ∑ r : Fin 5000, rowK (fun k => x0 (ix2 r k)) (fun k => x1 (ix2 (0 : Fin 1) k)) := by
  rw [pay_eq]
  refine congrArg (v35 (ix2 p q) + ·) ?_
  refine (Cert.RowReduce.shapeCast_a_a1_apply _ shapeCasts_S1_S1x1 p q).trans ?_
  refine (Cert.ColReduce.multiReduction_add_col _ _ reduces_S5000x1_S1 (.inl rfl) rfl p).trans ?_
  refine Finset.sum_congr rfl fun r _ => ?_
  rw [colTerm_apply, cntCol_apply, rowSums_apply, rowSums_apply]
  unfold rowK sumZ sumZZ
  simp only [zmat_apply, zz_apply]

end Cert.KernelIdeal.Tile

end
-- ==== Proof.KernelAcc.lean ====
/-
  The accumulator the kernel carries across its grid, read at the extended reals.

  The grid has 40 points: 2 cores times 20 tiles, visited in order.  At a core's first tile (point ≡ 0 mod 20) the body
  stores zero into its one-cell scratch, then every body adds its tile's value (the sum of the tile's rows' values) to the
  scratch; at a core's last tile (point ≡ 19 mod 20) the scratch is copied to the core's one-cell output block.  So after
  point `n` the scratch holds `0 + tile(20q) + … + tile(n)` for the core `q = n / 20`, and the output block written at point
  `20q + 19` holds the core's whole sum.  First each case's stores are read back as values (for any float instance), then the
  invariant is an induction on the point, and the per-core closed form an induction on the tile.
-/
import proofs.«176106_j65575560675889_2_alg».proof.Proof.Gen.KernelIdeal.Frame
import proofs.«176106_j65575560675889_2_alg».proof.Proof.KernelTile
import Idealize.ShloMosaic.Lib.Pipeline.Value
import Idealize.ShloMosaic.Lib.Tactic

noncomputable section

namespace Cert.KernelIdeal.Acc

open Idealize.ShloMosaic Idealize.ShloMosaic.TcCoe Idealize.SL.Sem Idealize.ShloMosaic.ValueIdx
open Cert.KernelIdeal Cert.KernelIdeal.Gen Cert.RowSpec
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case leaves, for any float instance -/

section Pieces
variable {F : FTy → Type} [FloatOps F]

/-- A core's first tile: the scratch is zeroed, read back, and left at the body's value over the zero. -/
theorem sout_A (c : Dev nD) (i : grid0.Coords) (a2 : Memref sig .tc .vmem S5000x256 .f32) (h2 : a2.IsWhole)
    (a3 : Memref sig .tc .vmem S1x256 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 : Vec F S5000x256 .f32) (x1 : Vec F S1x256 .f32) :
    sout0_A_0 c i a2 h2 a3 h3 a4 h4 a5 h5 hc0 hc1 x0 x1 = k0_pay1 (k0_pay4 x0 x1 (k0_pay3 (F := F))) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2, View.readCov_unit_zero (S := S1x1) _ hz2]
  simp only [View.readAt_eq_ld, h2.read_unread, h3.read_unread, View.ld_unit_zero (S := S5000x256) hz2,
    View.ld_unit_zero (S := S1x256) hz2]

/-- A middle tile: the scratch is left at the body's value over what it held. -/
theorem sout_B (c : Dev nD) (i : grid0.Coords) (a2 : Memref sig .tc .vmem S5000x256 .f32) (h2 : a2.IsWhole)
    (a3 : Memref sig .tc .vmem S1x256 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 : Vec F S5000x256 .f32) (x1 : Vec F S1x256 .f32) (xs0 : Vec F S1x1 .f32) :
    sout0_B_0 c i a2 h2 a3 h3 a4 h4 a5 h5 hc0 hc1 x0 x1 xs0 = k0_pay1 (k0_pay4 x0 x1 xs0) := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S5000x256) hz2,
    View.ld_unit_zero (S := S1x256) hz2, View.ld_unit_zero (S := S1x1) hz2]

/-- A core's last tile: the scratch as at a middle tile, -/
theorem sout_C (c : Dev nD) (i : grid0.Coords) (a2 : Memref sig .tc .vmem S5000x256 .f32) (h2 : a2.IsWhole)
    (a3 : Memref sig .tc .vmem S1x256 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 : Vec F S5000x256 .f32) (x1 : Vec F S1x256 .f32) (xs0 : Vec F S1x1 .f32) :
    sout0_C_0 c i a2 h2 a3 h3 a4 h4 a5 h5 hc0 hc1 x0 x1 xs0 = k0_pay1 (k0_pay4 x0 x1 xs0) := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S5000x256) hz2,
    View.ld_unit_zero (S := S1x256) hz2, View.ld_unit_zero (S := S1x1) hz2]

/-- and the output block at the scratch's new contents, as a [1, 1, 1] block. -/
theorem out_C (c : Dev nD) (i : grid0.Coords) (a2 : Memref sig .tc .vmem S5000x256 .f32) (h2 : a2.IsWhole)
    (a3 : Memref sig .tc .vmem S1x256 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 : Vec F S5000x256 .f32) (x1 : Vec F S1x256 .f32) (xs0 : Vec F S1x1 .f32) :
    out0_C_2 c i a2 h2 a3 h3 a4 h4 a5 h5 hc0 hc1 x0 x1 xs0 = k0_pay2 (k0_pay1 (k0_pay4 x0 x1 xs0)) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S1x1) _ hz2]
  simp only [View.readAt_eq_ld, h2.read_unread, h3.read_unread, h5.read_unread, View.ld_unit_zero (S := S5000x256) hz2,
    View.ld_unit_zero (S := S1x256) hz2, View.ld_unit_zero (S := S1x1) hz2]

end Pieces

/-! ## One step at the extended reals -/

/-- The zero the first tile stores. -/
theorem pay3_eq : k0_pay3 (F := Ideal) = fun _ => wZ := by
  unfold k0_pay3; exact shapeCast_self _ _

/-- A tile's value: the sum of its rows' values (every row against the same weights). -/
def tileOf (x0 : Vec Ideal S5000x256 .f32) (x1 : Vec Ideal S1x256 .f32) : EReal :=
  ∑ r : Fin 5000, rowK (fun k => x0 (ix2 r k)) (fun k => x1 (ix2 (0 : Fin 1) k))

/-- The body over a scratch holding `a` leaves `a` plus the tile's value. -/
theorem step_eq (x0 : Vec Ideal S5000x256 .f32) (x1 : Vec Ideal S1x256 .f32) (xs : Vec Ideal S1x1 .f32) (a : EReal)
    (hxs : xs = fun _ => a) : k0_pay1 (k0_pay4 (F := Ideal) x0 x1 xs) = fun _ => a + tileOf x0 x1 := by
  unfold k0_pay1
  rw [shapeCast_self]
  funext j
  obtain ⟨p, q, rfl⟩ : ∃ (p : Fin 1) (q : Fin 1), j = ix2 p q := ⟨j 0, j 1, eq_ix2 j⟩
  rw [Cert.KernelIdeal.Tile.pay_apply, hxs]
  rfl

/-- The output block of a constant scratch is that constant. -/
theorem pay2_const (a : EReal) : k0_pay2 (F := Ideal) (fun _ => a) = fun _ => a := rfl

/-! ## The invariant -/

variable (m : (ℓ : Loc nD τ sig) → Buf (Elt Ideal) ℓ)

/-- The value of the tile of point `t`: its block of labels against the weights' block. -/
def tile (c : Dev nD) (t : Fin cfg0.N) : EReal := tileOf (iblk m c 0 t) (iblk m c 1 t)

/-- The scratch after point `n`: restarted from zero at a core's first tile. -/
def accAt (c : Dev nD) : (n : ℕ) → n < cfg0.N → EReal
  | 0, h => wZ + tile m c ⟨0, h⟩
  | n + 1, h => (if (n + 1) % 20 = 0 then wZ else accAt c n (Nat.lt_of_succ_lt h)) + tile m c ⟨n + 1, h⟩

/-- After every point the scratch holds the running sum of its core. -/
theorem scratch_eq (c : Dev nD) : ∀ (n : ℕ) (h : n < cfg0.N), (outsAt0 m c n h).2 = fun _ => accAt m c n h
  | 0, h => by
    refine (congrArg Prod.snd (outsAt0_A m c ⟨0, h⟩ rfl (show ¬ (0 : ℕ) % 20 = 19 by decide))).trans ?_
    refine (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) ((hcond0_0 ⟨0, h⟩).mpr rfl) (fun hh => (show ¬ (0 : ℕ) % 20 = 19 by decide) ((hcond0_1 ⟨0, h⟩).mp hh))
      (iblk m c 0 ⟨0, h⟩) (iblk m c 1 ⟨0, h⟩)).trans ?_
    exact step_eq (iblk m c 0 ⟨0, h⟩) (iblk m c 1 ⟨0, h⟩) _ wZ pay3_eq
  | n + 1, h => by
    have ih := scratch_eq c n (Nat.lt_of_succ_lt h)
    have hN : n + 1 < 40 := lt_of_lt_of_eq h (show cfg0.N = 40 from N_0)
    by_cases h0 : (n + 1) % 20 = 0
    · have h1 : ¬ (n + 1) % 20 = 19 := by omega
      refine (congrArg Prod.snd (outsAt0_A m c ⟨n + 1, h⟩ h0 h1)).trans ?_
      refine (sout_A (F := Ideal) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) ((hcond0_0 ⟨n + 1, h⟩).mpr h0) (fun hh => h1 ((hcond0_1 ⟨n + 1, h⟩).mp hh))
        (iblk m c 0 ⟨n + 1, h⟩) (iblk m c 1 ⟨n + 1, h⟩)).trans ?_
      refine (step_eq (iblk m c 0 ⟨n + 1, h⟩) (iblk m c 1 ⟨n + 1, h⟩) _ wZ pay3_eq).trans ?_
      funext _
      show wZ + tile m c ⟨n + 1, h⟩ = (if (n + 1) % 20 = 0 then wZ else accAt m c n _) + tile m c ⟨n + 1, h⟩
      rw [if_pos h0]
    · by_cases h1 : (n + 1) % 20 = 19
      · refine (congrArg Prod.snd (outsAt0_C m c ⟨n + 1, h⟩ h0 h1)).trans ?_
        refine (sout_C (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1)
          (iblk m c 0 ⟨n + 1, h⟩) (iblk m c 1 ⟨n + 1, h⟩)
          (outsAt0 m c n (Nat.lt_of_succ_lt h)).2).trans ?_
        refine (step_eq (iblk m c 0 ⟨n + 1, h⟩) (iblk m c 1 ⟨n + 1, h⟩) _ (accAt m c n (Nat.lt_of_succ_lt h)) ih).trans ?_
        funext _
        show accAt m c n _ + tile m c ⟨n + 1, h⟩ = (if (n + 1) % 20 = 0 then wZ else accAt m c n _) + tile m c ⟨n + 1, h⟩
        rw [if_neg h0]
      · refine (congrArg Prod.snd (outsAt0_B m c ⟨n + 1, h⟩ h0 h1)).trans ?_
        refine (sout_B (F := Ideal) c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh))
          (iblk m c 0 ⟨n + 1, h⟩) (iblk m c 1 ⟨n + 1, h⟩)
          (outsAt0 m c n (Nat.lt_of_succ_lt h)).2).trans ?_
        refine (step_eq (iblk m c 0 ⟨n + 1, h⟩) (iblk m c 1 ⟨n + 1, h⟩) _ (accAt m c n (Nat.lt_of_succ_lt h)) ih).trans ?_
        funext _
        show accAt m c n _ + tile m c ⟨n + 1, h⟩ = (if (n + 1) % 20 = 0 then wZ else accAt m c n _) + tile m c ⟨n + 1, h⟩
        rw [if_neg h0]

/-- At a core's last tile the output block holds the scratch's new contents. -/
theorem out_eq (c : Dev nD) (n : ℕ) (h : n + 1 < cfg0.N) (h1 : (n + 1) % 20 = 19) :
    (outsAt0 m c (n + 1) h).1 = fun _ => accAt m c (n + 1) h := by
  have h0 : ¬ (n + 1) % 20 = 0 := by omega
  have hs := scratch_eq m c (n + 1) h
  have ih := scratch_eq m c n (Nat.lt_of_succ_lt h)
  refine (congrArg Prod.fst (outsAt0_C m c ⟨n + 1, h⟩ h0 h1)).trans ?_
  refine (out_C (F := Ideal) c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1)
    (iblk m c 0 ⟨n + 1, h⟩) (iblk m c 1 ⟨n + 1, h⟩)
    (outsAt0 m c n (Nat.lt_of_succ_lt h)).2).trans ?_
  rw [step_eq (iblk m c 0 ⟨n + 1, h⟩) (iblk m c 1 ⟨n + 1, h⟩) _ (accAt m c n (Nat.lt_of_succ_lt h)) ih, pay2_const]
  funext _
  show accAt m c n _ + tile m c ⟨n + 1, h⟩ = (if (n + 1) % 20 = 0 then wZ else accAt m c n _) + tile m c ⟨n + 1, h⟩
  rw [if_neg h0]

/-! ## The closed form per core -/

/-- A tile's value by the point's number, zero past the grid. -/
def tileN (c : Dev nD) (n : ℕ) : EReal := if h : n < cfg0.N then tile m c ⟨n, h⟩ else 0

/-- At a core's first tile the scratch restarts from zero. -/
theorem accAt_first (c : Dev nD) : ∀ (n : ℕ) (h : n < cfg0.N), n % 20 = 0 → accAt m c n h = wZ + tile m c ⟨n, h⟩
  | 0, _, _ => rfl
  | k + 1, h, h0 => by
    show (if (k + 1) % 20 = 0 then wZ else accAt m c k _) + tile m c ⟨k + 1, h⟩ = _
    rw [if_pos h0]

/-- At any other tile it adds the tile's value to what the tile before left. -/
theorem accAt_next (c : Dev nD) (n : ℕ) (h : n + 1 < cfg0.N) (h0 : ¬ (n + 1) % 20 = 0) :
    accAt m c (n + 1) h = accAt m c n (Nat.lt_of_succ_lt h) + tile m c ⟨n + 1, h⟩ := by
  show (if (n + 1) % 20 = 0 then wZ else accAt m c n _) + tile m c ⟨n + 1, h⟩ = _
  rw [if_neg h0]

/-- After tile `i` of core `q` the scratch holds zero plus the core's tiles up to `i`. -/
theorem accAt_core (c : Dev nD) (q : ℕ) : ∀ (i : ℕ) (hi : i < 20) (h : 20 * q + i < cfg0.N),
    accAt m c (20 * q + i) h = wZ + ∑ b ∈ Finset.range (i + 1), tileN m c (20 * q + b)
  | 0, hi, h => by
    have e : tileN m c (20 * q + 0) = tile m c ⟨20 * q + 0, h⟩ := dif_pos h
    rw [Finset.sum_range_one, e]
    exact accAt_first m c (20 * q + 0) h (by omega)
  | i + 1, hi, h => by
    have ih := accAt_core c q i (by omega) (Nat.lt_of_succ_lt h)
    have e : tileN m c (20 * q + (i + 1)) = tile m c ⟨20 * q + (i + 1), h⟩ := dif_pos h
    rw [Finset.sum_range_succ, e]
    refine (accAt_next m c (20 * q + i) h (by omega)).trans ?_
    rw [ih]
    exact add_assoc _ _ _

end Cert.KernelIdeal.Acc

end
-- ==== Proof.KernelArr.lean ====
/-
  From the grid's accumulator to the program's result.

  The kernel's output array has one cell per core; the cell of core `q` is written once, at point `20q + 19`, with that
  core's running sum.  The block of labels of point `t` is rows `5000t … 5000t + 4999` of the labels; the weights' block is
  the whole [1, 256] array the host lines before the call leave: the weights `1 - 1 / (1 + exp (-(θ - 5)))` reshaped to a row.
  After the call the host sums the cells of the output array and adds `1e-4 · ∑ θ²`.
-/
import proofs.«176106_j65575560675889_2_alg».proof.Proof.KernelAcc
import Idealize.ShloMosaic.Lib.Pipeline.Value
import Idealize.ShloMosaic.Lib.StableHlo.Run
import Idealize.ShloMosaic.Lib.IdealHost

noncomputable section

namespace Cert.KernelIdeal.Arr

open Idealize.ShloMosaic Idealize.ShloMosaic.TcCoe Idealize.SL.Sem Idealize.ShloMosaic.ValueIdx
open Cert.KernelIdeal Cert.KernelIdeal.Gen Cert.RowSpec Cert.KernelIdeal.Acc
open Idealize.ShloMosaic.Pipeline (Dat)

variable (m : (ℓ : Loc nD τ sig) → Buf (Elt Ideal) ℓ)

/-- The printed index maps, decided over the grid: the labels' block index is the point's number, the weights' block
    never moves, the output's block index is the core. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val / 20 ∧ win0_2.index t (1 : Fin 3) = 0 ∧ win0_2.index t (2 : Fin 3) = 0 :=
  (by decide +kernel : ∀ t : Fin grid0.N, _)

/-! ## The output array -/

/-- The scratch after point `n`, by the point's number. -/
def accN (c : Dev nD) (n : ℕ) : EReal := if h : n < cfg0.N then accAt m c n h else 0

/-- The output array after the call: cell `q` holds core `q`'s running sum after its last tile. -/
def outArr (c : Dev nD) : Buf (Elt Ideal) ((c : Thread nD τ).loc main_v11) := fun i => accN m c (20 * (i 0).val + 19)

/-- What a core's last point writes back is its cell of `outArr`. -/
theorem flushed_eq (c : Dev nD) (t : Fin cfg0.N) (hf : (cfg0.win 2).flush t = true) :
    (dats m 0 c).flushed 2 t = ((cfg0.win 2).blk t).view.read (Elt Ideal) (outArr m c) := by
  have h19 : t.val % 20 = 19 := (flush0_2 t).mp hf
  obtain ⟨e0, e1, e2, e3, e4, e5, e6⟩ := idx_facts t
  show (cfg0.win 2).cut (grid0.coords t) ((dats m 0 c).after 2 t) = _
  rw [after0_2]
  obtain ⟨n, hn⟩ := t
  cases n with
  | zero => exact absurd h19 (show ¬ (0 : ℕ) % 20 = 19 by decide)
  | succ n =>
    rw [out_eq m c n hn h19]
    funext y
    rw [View.read_apply]
    have hy : (y 0).val < 1 := (y 0).isLt
    have e : ((((cfg0.win 2).blk ⟨n + 1, hn⟩).view.emb y) 0).val = (n + 1) / 20 := by
      have e4' : win0_2.index ⟨n + 1, hn⟩ (0 : Fin 3) = (n + 1) / 20 := e4
      show win0_2.index ⟨n + 1, hn⟩ (0 : Fin 3) * 1 + 1 * (y 0).val = (n + 1) / 20
      rw [e4']; omega
    show accAt m c (n + 1) hn = accN m c (20 * ((((cfg0.win 2).blk ⟨n + 1, hn⟩).view.emb y) 0).val + 19)
    rw [e]
    have e' : 20 * ((n + 1) / 20) + 19 = n + 1 := by
      have : (n + 1) % 20 = 19 := h19
      omega
    rw [e']
    exact (dif_pos hn).symm

/-- An index of the output array is in point `t`'s block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v11).slice (win0_2.rect t)).set ↔ _
  rw [View.set_slice_whole, Rect.mem_set_unit]
  exact Iff.rfl

/-- Every cell is written back by its core's last point. -/
theorem cover (i : S2x1x1.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hN : cfg0.N = 40 := N_0
  refine ⟨⟨20 * (i 0).val + 19, by omega⟩, (flush0_2 _).mpr (by show (20 * (i 0).val + 19) % 20 = 19; omega), ?_⟩
  obtain ⟨e0, e1, e2, e3, e4, e5, e6⟩ := idx_facts ⟨20 * (i 0).val + 19, by omega⟩
  rw [mem_blk]
  intro a
  match a with
  | ⟨0, _⟩ =>
    show win0_2.index _ (0 : Fin 3) * 1 ≤ (i 0).val ∧ (i 0).val < win0_2.index _ (0 : Fin 3) * 1 + 1
    rw [e4]; show (20 * (i 0).val + 19) / 20 * 1 ≤ (i 0).val ∧ (i 0).val < (20 * (i 0).val + 19) / 20 * 1 + 1; omega
  | ⟨1, _⟩ =>
    show win0_2.index _ (1 : Fin 3) * 1 ≤ (i 1).val ∧ (i 1).val < win0_2.index _ (1 : Fin 3) * 1 + 1
    rw [e5]; omega
  | ⟨2, _⟩ =>
    show win0_2.index _ (2 : Fin 3) * 1 ≤ (i 2).val ∧ (i 2).val < win0_2.index _ (2 : Fin 3) * 1 + 1
    rw [e6]; omega

/-- So the output array ends holding the cores' sums. -/
theorem final (c : Dev nD) : (dats m 0 c).arrAt 2 cfg0.N = outArr m c :=
  (dats m 0 c).arrAt_eq_of_cover 2 (outArr m c) (flushed_eq m c) cover

/-! ## The blocks the body reads -/

/-- The labels' block at point `t`: rows `5000t …` of the labels. -/
theorem iblk0_apply (c : Dev nD) (t : Fin cfg0.N) (r : Fin 5000) (k : Fin 256) (hlt : 5000 * t.val + r.val < 200000) :
    (iblk m c 0 t : Vec Ideal S5000x256 .f32) (ix2 r k)
      = m ((c : Thread nD τ).loc main_arg0) (ix2 ⟨5000 * t.val + r.val, hlt⟩ k) := by
  obtain ⟨e0, e1, e2, e3, e4, e5, e6⟩ := idx_facts t
  unfold iblk
  rw [View.read_apply]
  show V m c main_arg0 (((cfg0.win 0).blk t).view.emb (ix2 r k)) = _
  refine (congrFun (V_main_arg0 m c) _).trans (congrArg _ (funext fun a => Fin.ext ?_))
  match a with
  | ⟨0, _⟩ => show win0_0.index t (0 : Fin 2) * 5000 + 1 * r.val = 5000 * t.val + r.val; rw [e0]; omega
  | ⟨1, _⟩ => show win0_0.index t (1 : Fin 2) * 256 + 1 * k.val = k.val; rw [e1]; omega

/-- The weights, as the host lines before the call compute them from the parameters. -/
def alphaK (θ : FVec Ideal S256 .f32) : FVec Ideal S256 .f32 :=
  subf (broadcastInDim S256 ![] bcast_S_S256 (constant S_ .f32 0x3F800000#32))
    (Host.divf (broadcastInDim S256 ![] bcast_S_S256 (constant S_ .f32 0x3F800000#32))
      (addf (broadcastInDim S256 ![] bcast_S_S256 (constant S_ .f32 0x3F800000#32))
        (Host.exp (Host.negf (subf θ (broadcastInDim S256 ![] bcast_S_S256 (constant S_ .f32 0x40A00000#32)))))))

/-- The array the weights' window stages: the weights reshaped to a row. -/
theorem V_weights (c : Dev nD) :
    (V m c main_v10 : S1x256.Idx → EReal) = shapeCast S1x256 (alphaK (m ((c : Thread nD τ).loc main_arg1))) shapeCasts_S256_S1x256 := by
  dsimp only [Gen.V, Gen.V0]
  simp only [Gen.hostOps0, List.flatten_cons, List.flatten_nil, List.append_nil, List.cons_append, List.nil_append]
  after_results
  rfl

/-- The weights' block at any point: the weights themselves. -/
theorem iblk1_apply (c : Dev nD) (t : Fin cfg0.N) (k : Fin 256) :
    (iblk m c 1 t : Vec Ideal S1x256 .f32) (ix2 (0 : Fin 1) k) = alphaK (m ((c : Thread nD τ).loc main_arg1)) (ix1 k) := by
  obtain ⟨e0, e1, e2, e3, e4, e5, e6⟩ := idx_facts t
  unfold iblk
  rw [View.read_apply]
  show V m c main_v10 (((cfg0.win 1).blk t).view.emb (ix2 (0 : Fin 1) k)) = _
  have hemb : ((cfg0.win 1).blk t).view.emb (ix2 (0 : Fin 1) k) = (ix2 (0 : Fin 1) k : S1x256.Idx) := by
    funext a; apply Fin.ext
    match a with
    | ⟨0, _⟩ => show win0_1.index t (0 : Fin 2) * 1 + 1 * 0 = 0; rw [e2]
    | ⟨1, _⟩ => show win0_1.index t (1 : Fin 2) * 256 + 1 * k.val = k.val; rw [e3]; omega
  rw [hemb]
  refine (congrFun (V_weights m c) _).trans ?_
  exact shapeCast_apply _ shapeCasts_S256_S1x256 _ (ix1 k) (by
    rw [Shape.rowMajor_val_one, Shape.rowMajor_val_two]
    show k.val = 0 * 256 + k.val
    omega)

/-! ## The host lines after the call -/

/-- The result buffer after the host tail: the output array's cells summed, plus `1e-4 · ∑ θ²`. -/
theorem tail_eq (c : Dev nD) :
    Pipeline.afterTail₀ cfgs (dats m) 0 (V0 m) [hostOps1] c main_v16
      = addf (Host.reduceAdd (F := Ideal) (outArr m c) (constant S_ .f32 0x00000000#32) reducesTo_S2x1x1_S_d0_1_2 h_S_)
          (mulf (constant S_ .f32 0x38D1B717#32)
            (Host.reduceAdd (F := Ideal) (mulf (m ((c : Thread nD τ).loc main_arg1)) (m ((c : Thread nD τ).loc main_arg1)))
              (constant S_ .f32 0x00000000#32) reducesTo_S256_S_d0 h_S_)) := by
  have e11 : Pipeline.withArrays (cfgs 0).spec c (V0 m c) (fun w => (dats m 0 c).arrAt w (cfgs 0).N) (Proc.devRef .tc main_v11)
      = outArr m c := (Pipeline.withArrays_arr spec0 launch0.win.arr_inj c _ _ 2).trans (final m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  show StableHlo.after hostOps1 _ (Proc.devRef .tc main_v16) = _
  after_results
  rw [e11, e1]

end Cert.KernelIdeal.Arr

end
-- ==== Proof.RefRead.lean ====
/-
  The reference's stages read at an index: its result is zero plus the sum over all 200000 rows of the reference's row value
  (the row of labels against the weights), plus the regulariser.

  Every stage is a pointwise operation, a broadcast, or a reduction along a row, so a stage at row `n` (and column `k`) depends
  on row `n` of the labels only: the mask bit and the masked product at `(n, k)`, the count, the guarded count, the mean and the
  term at `n`.  The integer count is the fold of 32-bit additions over the row's mask words, the float row sums are the
  starting zero plus the sum over the row.
-/
import proofs.«176106_j65575560675889_2_alg».proof.Proof.RefRun
import proofs.«176106_j65575560675889_2_alg».proof.Proof.RowSpec
import proofs.«176106_j65575560675889_2_alg».proof.Proof.LibRowReduce
import Idealize.ShloMosaic.Lib.Pipeline.Value
import Idealize.ShloMosaic.Lib.ValueIdx
import Idealize.ShloMosaic.PureOps.Ideal.Laws

noncomputable section

namespace Cert.ReferenceIdeal.RefRead

open Idealize.ShloMosaic Idealize.ShloMosaic.ValueIdx Cert.ReferenceIdeal Cert.ReferenceIdeal.Gen Cert.ReferenceIdeal.HandRun Cert.RowSpec

variable (Y : FVec Ideal S200000x256 .f32) (θ : FVec Ideal S256 .f32)

/-- Row `n` of the labels. -/
def yRow (n : Fin 200000) : Fin 256 → EReal := fun k => Y (ix2 n k)
/-- The weights as a row. -/
def aRow : Fin 256 → EReal := fun k => alphaV (F := Ideal) θ (ix1 k)

/-- A float sum along a row: the starting zero plus the sum over the row. -/
theorem rowSum_apply (X : FVec Ideal S200000x256 .f32) (n : Fin 200000) :
    Host.reduceAdd (F := Ideal) X (constant S_ .f32 0x00000000#32) reducesTo_S200000x256_S200000_d1 h_S_ (ix1 n)
      = wZ + ∑ k : Fin 256, X (ix2 n k) := by
  simp only [Host.reduceAdd, Ideal.hostReduceAdd_def]
  rw [Ideal.hostReduceAdd_single reducesTo_S200000x256_S200000_d1 (by decide)]
  exact congrArg (wZ + ·) (Finset.sum_congr rfl fun k _ => congrArg X (Cert.RowReduce.lift_row _ n k))

/-- The weights broadcast over the rows read, at `(n, k)`, weight `k`. -/
theorem bcastW_apply (a : FVec Ideal S256 .f32) (n : Fin 200000) (k : Fin 256) :
    broadcastInDim S200000x256 ![0, 1] bcast_S1x256_S200000x256_0_1 (broadcastInDim S1x256 ![1] bcast_S256_S1x256_1 a) (ix2 n k)
      = a (ix1 k) := by
  refine (broadcastInDim_apply _ bcast_S1x256_S200000x256_0_1 _ (ix2 n k) (ix2 (0 : Fin 1) k) (fun ax => match ax with
    | ⟨0, _⟩ => by show 0 = if (1 : Nat) = 1 then 0 else n.val; rw [if_pos rfl]
    | ⟨1, _⟩ => by show k.val = if (256 : Nat) = 1 then 0 else k.val; rw [if_neg (by decide)])).trans ?_
  exact broadcastInDim_apply _ bcast_S256_S1x256_1 a (ix2 (0 : Fin 1) k) (ix1 k) (fun ax => match ax with
    | ⟨0, _⟩ => by show k.val = if (256 : Nat) = 1 then 0 else k.val; rw [if_neg (by decide)])

/-- A per-row vector broadcast along the rows reads, at `(n, k)`, entry `n`. -/
theorem bcastR_apply (v : FVec Ideal S200000 .f32) (n : Fin 200000) (k : Fin 256) :
    broadcastInDim S200000x256 ![0, 1] bcast_S200000x1_S200000x256_0_1 (broadcastInDim S200000x1 ![0] bcast_S200000_S200000x1_0 v) (ix2 n k)
      = v (ix1 n) := by
  refine (broadcastInDim_apply _ bcast_S200000x1_S200000x256_0_1 _ (ix2 n k) (ix2 n (0 : Fin 1)) (fun ax => match ax with
    | ⟨0, _⟩ => by show n.val = if (200000 : Nat) = 1 then 0 else n.val; rw [if_neg (by decide)]
    | ⟨1, _⟩ => by show 0 = if (1 : Nat) = 1 then 0 else k.val; rw [if_pos rfl])).trans ?_
  exact broadcastInDim_apply _ bcast_S200000_S200000x1_0 v (ix2 n (0 : Fin 1)) (ix1 n) (fun ax => match ax with
    | ⟨0, _⟩ => by show n.val = if (200000 : Nat) = 1 then 0 else n.val; rw [if_neg (by decide)])

/-- The count of row `n`: the 32-bit sum of its mask words, converted. -/
theorem cnt_apply (n : Fin 200000) : cntV (F := Ideal) Y (ix1 n) = cntR (yRow Y n) := by
  unfold cntV cntR
  show FloatOps.sitofp (F := Ideal) .f32 (Host.reduce IntOp.addi (extui 32 (maskV (F := Ideal) Y) natLt_1_32) (constantI S_ 32 0#32)
    reducesTo_S200000x256_S200000_d1 h_S_ (ix1 n)) = _
  have hR : S200000x256.Reduces [1] S200000 := by decide
  rw [Host.reduce_eq_fold_single IntOp.addi _ _ reducesTo_S200000x256_S200000_d1 hR h_S_ (ix1 n)]
  have e : ((extui 32 (maskV (F := Ideal) Y) natLt_1_32) ∘ hR.lift (ix1 n)) = fun k => cword (yRow Y n k) :=
    funext fun k => by
      show extui 32 (maskV (F := Ideal) Y) natLt_1_32 (hR.lift (ix1 n) k) = _
      rw [Cert.RowReduce.lift_row hR n k]; rfl
  rw [e]; rfl

/-- The masked product at `(n, k)`. -/
theorem z_apply (n : Fin 200000) (k : Fin 256) : zV (F := Ideal) Y θ (ix2 n k) = zval (yRow Y n k) (aRow θ k) := by
  unfold zV
  show Scalar.select (Ideal.cmp .one (Y (ix2 n k)) wM1)
    (Y (ix2 n k) * broadcastInDim S200000x256 ![0, 1] bcast_S1x256_S200000x256_0_1
      (broadcastInDim S1x256 ![1] bcast_S256_S1x256_1 (alphaV (F := Ideal) θ)) (ix2 n k)) wZ = _
  rw [bcastW_apply]; rfl

/-- The guarded count of row `n`. -/
theorem safe_apply (n : Fin 200000) : safeV (F := Ideal) Y (ix1 n) = safe (cntR (yRow Y n)) := by
  show Scalar.select (Ideal.cmp .ogt (cntV (F := Ideal) Y (ix1 n)) wZ) (cntV (F := Ideal) Y (ix1 n)) wOne = _
  rw [cnt_apply]; rfl

/-- The positivity bit of row `n`. -/
theorem pos_apply (n : Fin 200000) : posV (F := Ideal) Y (ix1 n) = pos (cntR (yRow Y n)) := by
  show Ideal.cmp .ogt (cntV (F := Ideal) Y (ix1 n)) wZ = _
  rw [cnt_apply]; rfl

/-- The mean of row `n`. -/
theorem mu_apply (n : Fin 200000) : muV (F := Ideal) Y θ (ix1 n) = muR (yRow Y n) (aRow θ) := by
  unfold muV muR sumZ
  show Ideal.div (Host.reduceAdd (F := Ideal) (zV (F := Ideal) Y θ) (constant S_ .f32 0x00000000#32) reducesTo_S200000x256_S200000_d1 h_S_ (ix1 n))
    (safeV (F := Ideal) Y (ix1 n)) = _
  rw [rowSum_apply, safe_apply]
  simp only [z_apply]

/-- The masked deviation at `(n, k)`. -/
theorem t_apply (n : Fin 200000) (k : Fin 256) : tV (F := Ideal) Y θ (ix2 n k) = dev (yRow Y n) (aRow θ) k := by
  unfold tV dev
  show Scalar.select (Ideal.cmp .one (Y (ix2 n k)) wM1)
    (zV (F := Ideal) Y θ (ix2 n k) - broadcastInDim S200000x256 ![0, 1] bcast_S200000x1_S200000x256_0_1
      (broadcastInDim S200000x1 ![0] bcast_S200000_S200000x1_0 (muV (F := Ideal) Y θ)) (ix2 n k)) wZ = _
  rw [bcastR_apply, mu_apply, z_apply]; rfl

/-- The term of row `n`. -/
theorem di_apply (n : Fin 200000) : diV (F := Ideal) Y θ (ix1 n) = rowR (yRow Y n) (aRow θ) := by
  unfold diV rowR
  show Scalar.select (posV (F := Ideal) Y (ix1 n))
    (Ideal.div (Host.reduceAdd (F := Ideal) (mulf (tV (F := Ideal) Y θ) (tV (F := Ideal) Y θ)) (constant S_ .f32 0x00000000#32)
      reducesTo_S200000x256_S200000_d1 h_S_ (ix1 n)) (safeV (F := Ideal) Y (ix1 n))) wZ = _
  rw [pos_apply, rowSum_apply, safe_apply]
  have e : ∀ k : Fin 256, mulf (tV (F := Ideal) Y θ) (tV (F := Ideal) Y θ) (ix2 n k) = dev (yRow Y n) (aRow θ) k * dev (yRow Y n) (aRow θ) k :=
    fun k => by show tV (F := Ideal) Y θ (ix2 n k) * tV (F := Ideal) Y θ (ix2 n k) = _; rw [t_apply]
  simp only [e]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate (for any extent: nothing is enumerated). -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The reference's result: zero plus the sum of all rows' terms, plus the regulariser. -/
theorem res_apply : resV (F := Ideal) Y θ ix0
    = (wZ + ∑ n : Fin 200000, rowR (yRow Y n) (aRow θ)) + tailV (F := Ideal) θ ix0 := by
  unfold resV
  rw [addf_apply]
  refine congrArg (· + tailV (F := Ideal) θ ix0) ?_
  simp only [Host.reduceAdd, Ideal.hostReduceAdd_def]
  rw [Ideal.hostReduceAdd_total reducesTo_S200000_S_d0 (fun b => b.elim0)]
  refine congrArg (wZ + ·) ?_
  exact (sum_idx1 (fun j => diV (F := Ideal) Y θ j)).trans (Finset.sum_congr rfl fun n _ => di_apply Y θ n)

end Cert.ReferenceIdeal.RefRead

end
-- ==== Proof.Finite.lean ====
/-
  The precondition read back: every entry of the labels and of the parameters is a real number.

  The precondition says `|x| < +∞` for every entry of both arguments, as two conjunctions over all entries joined by an `and`.
  Each conjunction that came out true met only true comparisons; and an extended real whose absolute value `max x (-x)` lies
  below `+∞` is neither infinity, so it is a real.
-/
import proofs.«176106_j65575560675889_2_alg».proof.Pre_finite_inputs
import proofs.«176106_j65575560675889_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- An extended real whose absolute value is below the word of `+∞` is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  unfold Ideal.cmp at h
  induction x using EReal.rec with
  | bot => simp at h
  | top => simp at h
  | coe r => exact ⟨r, rfl⟩

/-- Under the precondition both arguments hold reals only. -/
theorem reals_of_pre (Y : FVec Ideal S200000x256 .f32) (θ : FVec Ideal S256 .f32)
    (h : fn (F := Ideal) Y θ = fun _ => 1#1) :
    (∀ i, ∃ r : ℝ, Y i = (r : EReal)) ∧ (∀ k, ∃ r : ℝ, θ k = (r : EReal)) := by
  have h0 := congrFun h ValueIdx.ix0
  dsimp only [fn] at h0
  obtain ⟨hA, hB⟩ := IntOp.andi_eq_one.1 h0
  exact ⟨fun i => real_of_abs_lt _ (Host.reduce_andi_all _ _ _ _ _ hA i),
    fun k => real_of_abs_lt _ (Host.reduce_andi_all _ _ _ _ _ hB k)⟩

end Cert.Finite

end
-- ==== Proof.LibERealMin.lean ====
/-
  General facts about minima, roots and sums over the extended reals, as they arise when a kernel keeps a running minimum
  or a running sum over tiles and a reference reduces a whole axis at once.

    • `wTop`: the f32 word of +∞ is the top element;
    • `sqrt_mono`, `sqrt_nonneg`: the square root of the extended reals (−∞ and negatives to −∞, +∞ to +∞) is monotone, and
      non-negative on non-negative arguments;
    • `fold_min_map`: a monotone map that fixes +∞ commutes with a finite minimum taken from +∞;
    • `fold_min_nonneg`: such a minimum of non-negative terms is non-negative;
    • `mul_sum_nonneg`: a constant factor distributes over a finite sum of NON-NEGATIVE extended reals (true also when a
      term is +∞, which is where distributivity over the extended reals otherwise fails);
    • `sum_blocks`: a sum over the first w·Q naturals is the sum of Q consecutive blocks of w.
-/
import Idealize.ShloMosaic.PureOps.Ideal.Laws

noncomputable section

open Idealize.ShloMosaic

namespace Cert.LibERealMin

/-- The word of `+∞` is the top of the extended reals. -/
theorem wTop : Ideal.ofBits .f32 0x7F800000#32 = (⊤ : EReal) := by simp [Ideal.ofBits, Ideal.ieee]

/-- The square root of the extended reals (`-∞` and negatives to `-∞`, `+∞` to `+∞`) is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (by simp)
    | top => exact le_top
    | coe s =>
      have hrs : r ≤ s := EReal.coe_le_coe_iff.mp hxy
      simp only [Ideal.sqrt_coe]
      split_ifs with h1 h2
      · exact le_refl _
      · exact bot_le
      · exfalso; linarith
      · exact EReal.coe_le_coe_iff.mpr (Real.sqrt_le_sqrt hrs)

/-- It is non-negative on non-negative arguments. -/
theorem sqrt_nonneg {y : EReal} (hy : 0 ≤ y) : 0 ≤ Ideal.sqrt y := by
  induction y using EReal.rec with
  | bot => exact absurd hy (by simp)
  | top => exact le_top
  | coe r =>
    have hr : 0 ≤ r := EReal.coe_nonneg.mp hy
    simp only [Ideal.sqrt_coe, if_neg (not_lt.mpr hr)]
    exact EReal.coe_nonneg.mpr (Real.sqrt_nonneg r)

/-- A monotone map that fixes `+∞` commutes with a finite minimum taken from `+∞`. -/
theorem fold_min_map {ι : Type*} {f : EReal → EReal} (hf : Monotone f) (htop : f ⊤ = ⊤) (s : Finset ι) (h : ι → EReal) :
    s.fold min (Ideal.ofBits .f32 0x7F800000#32) (fun i => f (h i)) = f (s.fold min (Ideal.ofBits .f32 0x7F800000#32) h) := by
  have e := Finset.fold_hom (op := min) (op' := min) (s := s) (b := Ideal.ofBits .f32 0x7F800000#32) (f := h) (m := f)
    (fun x y => hf.map_min)
  rw [← e, wTop, htop]

/-- A finite minimum, taken from `+∞`, of non-negative terms is non-negative. -/
theorem fold_min_nonneg {ι : Type*} (s : Finset ι) (h : ι → EReal) (hh : ∀ i, 0 ≤ h i) :
    0 ≤ s.fold min (Ideal.ofBits .f32 0x7F800000#32) h := by
  rw [Finset.le_fold_min, wTop]
  exact ⟨le_top, fun i _ => hh i⟩

/-- A factor across a finite sum of non-negative extended reals. -/
theorem mul_sum_nonneg {ι : Type*} [DecidableEq ι] (c : EReal) (s : Finset ι) (x : ι → EReal) (hx : ∀ i, 0 ≤ x i) :
    c * ∑ i ∈ s, x i = ∑ i ∈ s, c * x i := by
  induction s using Finset.induction_on with
  | empty => simp
  | insert a s ha ih =>
    rw [Finset.sum_insert ha, Finset.sum_insert ha, EReal.left_distrib_of_nonneg (hx a) (Finset.sum_nonneg fun i _ => hx i), ih]

/-- A sum over the first `w·Q` naturals, block by block. -/
theorem sum_blocks {M : Type*} [AddCommMonoid M] (w : ℕ) (x : ℕ → M) (Q : ℕ) :
    ∑ m ∈ Finset.range (w * Q), x m = ∑ q ∈ Finset.range Q, ∑ j ∈ Finset.range w, x (w * q + j) := by
  induction Q with
  | zero => simp
  | succ Q ih =>
    rw [Nat.mul_succ, Finset.sum_range_add, ih]
    exact (Finset.sum_range_succ (fun q => ∑ j ∈ Finset.range w, x (w * q + j)) Q).symm

end Cert.LibERealMin

end
-- ==== Proof.Bridge.lean ====
/-
  The two programs' results are the same extended real.

  The kernel's result is the sum over its two cores of (zero plus the core's twenty tiles' values), each tile's value the sum
  of its 5000 rows' values, plus the regulariser; the reference's is zero plus the sum over all 200000 rows, plus the same
  regulariser.  Row `5000 · (20q + b) + r` of the labels is row `r` of tile `b` of core `q`, so the kernel's nested sum is the
  one sum over all rows regrouped (sums of extended reals regroup freely).  Row by row the two values agree by the row law,
  which needs the labels and the weights to be reals: the labels are by the precondition, and a weight
  `1 - 1 / (1 + exp (-(θ - 5)))` of a real parameter is a real, since `1 + exp …` is positive.
-/
import proofs.«176106_j65575560675889_2_alg».proof.Proof.KernelArr
import proofs.«176106_j65575560675889_2_alg».proof.Proof.RefRead
import proofs.«176106_j65575560675889_2_alg».proof.Proof.Finite
import proofs.«176106_j65575560675889_2_alg».proof.Proof.LibERealMin
import Idealize.ShloMosaic.Lib.IdealHost

noncomputable section

namespace Cert.Bridge

open Idealize.ShloMosaic Idealize.ShloMosaic.TcCoe Idealize.SL.Sem Idealize.ShloMosaic.ValueIdx
open Cert.KernelIdeal Cert.KernelIdeal.Gen Cert.RowSpec Cert.KernelIdeal.Acc Cert.KernelIdeal.Arr

/-! ## The weights -/

/-- The host lines before the kernel's call and the reference compute the weights by the same operations. -/
theorem alpha_same (θ : FVec Ideal S256 .f32) : alphaK θ = Cert.ReferenceIdeal.HandRun.alphaV (F := Ideal) θ := rfl

/-- A weight of a real parameter is a real. -/
theorem alpha_real (θ : FVec Ideal S256 .f32) (hθ : ∀ k, ∃ r : ℝ, θ k = (r : EReal)) (i : S256.Idx) :
    ∃ r : ℝ, alphaK θ i = (r : EReal) := by
  obtain ⟨t, ht⟩ := hθ i
  have h5 : Ideal.ofBits .f32 0x40A00000#32 = ((5 : ℝ) : EReal) := by
    simp [Ideal.ofBits, Ideal.ieee, -EReal.coe_mul]; norm_num
  have hpos : (1 + Real.exp (-(t - 5)) : ℝ) ≠ 0 := by positivity
  refine ⟨1 - 1 * (1 / (1 + Real.exp (-(t - 5)))), ?_⟩
  show Ideal.ofBits .f32 0x3F800000#32 - Ideal.div (Ideal.ofBits .f32 0x3F800000#32)
    (Ideal.ofBits .f32 0x3F800000#32 + Ideal.exp (-(θ i - Ideal.ofBits .f32 0x40A00000#32))) = _
  rw [Ideal.ofBits_one_f32, h5, ht, ← EReal.coe_one, ← EReal.coe_sub, ← EReal.coe_neg, Ideal.exp_coe, ← EReal.coe_add,
    Ideal.div_coe hpos, ← EReal.coe_mul, ← EReal.coe_sub]

/-! ## The kernel's nested sum is the sum over all rows -/

variable (m : (ℓ : Loc nD τ sig) → Buf (Elt Ideal) ℓ)

/-- The weights as a row, from core `c`'s parameters. -/
def aK (c : Dev nD) : Fin 256 → EReal := fun k => alphaK (m ((c : Thread nD τ).loc main_arg1)) (ix1 k)

/-- The kernel's value of row `n` of the labels, zero past the last row. -/
def dN (c : Dev nD) (n : ℕ) : EReal :=
  if h : n < 200000 then rowK (fun k => m ((c : Thread nD τ).loc main_arg0) (ix2 ⟨n, h⟩ k)) (aK m c) else 0

/-- A tile's value: the values of its 5000 rows of the labels. -/
theorem tile_eq (c : Dev nD) (t : Fin cfg0.N) : tile m c t = ∑ r ∈ Finset.range 5000, dN m c (5000 * t.val + r) := by
  have hN : t.val < 40 := lt_of_lt_of_eq t.isLt (show cfg0.N = 40 from N_0)
  rw [Finset.sum_range]
  unfold tile tileOf
  refine Finset.sum_congr rfl fun r _ => ?_
  have hlt : 5000 * t.val + r.val < 200000 := by have := r.isLt; omega
  rw [show dN m c (5000 * t.val + r.val) = _ from dif_pos hlt]
  exact congrArg₂ rowK (funext fun k => iblk0_apply m c t r k hlt) (funext fun k => iblk1_apply m c t k)

theorem tileN_eq (c : Dev nD) (n : ℕ) (hn : n < 40) : tileN m c n = ∑ r ∈ Finset.range 5000, dN m c (5000 * n + r) := by
  have h : n < cfg0.N := lt_of_lt_of_eq hn (show cfg0.N = 40 from N_0).symm
  rw [show tileN m c n = tile m c ⟨n, h⟩ from dif_pos h]
  exact tile_eq m c ⟨n, h⟩

/-- Core `q`'s cell: zero plus its twenty tiles. -/
theorem outArr_apply (c : Dev nD) (q : Fin 2) (u v : Fin 1) :
    outArr m c (ix3 q u v) = wZ + ∑ b ∈ Finset.range 20, ∑ r ∈ Finset.range 5000, dN m c (5000 * (20 * q.val + b) + r) := by
  have hq := q.isLt
  have h : 20 * q.val + 19 < cfg0.N := by rw [show cfg0.N = 40 from N_0]; omega
  show accN m c (20 * q.val + 19) = _
  rw [show accN m c (20 * q.val + 19) = accAt m c (20 * q.val + 19) h from dif_pos h, accAt_core m c q.val 19 (by omega) h]
  refine congrArg (wZ + ·) (Finset.sum_congr rfl fun b hb => ?_)
  have := Finset.mem_range.mp hb
  exact tileN_eq m c _ (by omega)

/-- The output array's index set is its first coordinate's range. -/
def idxEquiv211 : S2x1x1.Idx ≃ Fin 2 where
  toFun i := i 0
  invFun q := ix3 q (0 : Fin 1) (0 : Fin 1)
  left_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)
  right_inv _ := rfl

/-- All rows, regrouped: 2 cores of 20 tiles of 5000 rows. -/
theorem sum_regroup (c : Dev nD) :
    ∑ q ∈ Finset.range 2, ∑ b ∈ Finset.range 20, ∑ r ∈ Finset.range 5000, dN m c (5000 * (20 * q + b) + r)
      = ∑ n : Fin 200000, rowK (fun k => m ((c : Thread nD τ).loc main_arg0) (ix2 n k)) (aK m c) := by
  rw [← Cert.LibERealMin.sum_blocks 20 (fun t => ∑ r ∈ Finset.range 5000, dN m c (5000 * t + r)) 2,
    ← Cert.LibERealMin.sum_blocks 5000 (dN m c) (20 * 2),
    show Finset.range (5000 * (20 * 2)) = Finset.range 200000 from rfl, Finset.sum_range]
  exact Finset.sum_congr rfl fun n _ => dif_pos n.isLt

/-- The host's sum of the output array: zero plus the sum over all rows of the kernel's row value. -/
theorem kernel_sum (c : Dev nD) :
    Host.reduceAdd (F := Ideal) (outArr m c) (constant S_ .f32 0x00000000#32) reducesTo_S2x1x1_S_d0_1_2 h_S_ ix0
      = wZ + ∑ n : Fin 200000, rowK (fun k => m ((c : Thread nD τ).loc main_arg0) (ix2 n k)) (aK m c) := by
  simp only [Host.reduceAdd, Ideal.hostReduceAdd_def]
  rw [Ideal.hostReduceAdd_total reducesTo_S2x1x1_S_d0_1_2 (fun b => b.elim0)]
  refine congrArg (wZ + ·) ?_
  rw [← Equiv.sum_comp idxEquiv211.symm]
  have e : ∀ q : Fin 2, outArr m c (idxEquiv211.symm q)
      = ∑ b ∈ Finset.range 20, ∑ r ∈ Finset.range 5000, dN m c (5000 * (20 * q.val + b) + r) := fun q => by
    rw [show idxEquiv211.symm q = ix3 q (0 : Fin 1) (0 : Fin 1) from rfl, outArr_apply, wZ_eq, zero_add]
  refine (Finset.sum_congr (M := EReal) rfl fun q _ => e q).trans ?_
  rw [← Finset.sum_range (fun q => ∑ b ∈ Finset.range 20, ∑ r ∈ Finset.range 5000, dN m c (5000 * (20 * q + b) + r))]
  exact sum_regroup m c

/-! ## The bridge -/

/-- Under the precondition the kernel's result buffer holds the reference's result of the same arguments. -/
theorem result_eq (c : Dev nD)
    (hpre : Cert.Pre_finite_inputs.fn (F := Ideal) (m ((c : Thread nD τ).loc main_arg0)) (m ((c : Thread nD τ).loc main_arg1)) = fun _ => 1#1) :
    Pipeline.afterTail₀ cfgs (dats m) 0 (V0 m) [hostOps1] c main_v16
      = Cert.ReferenceIdeal.HandRun.resV (F := Ideal) (m ((c : Thread nD τ).loc main_arg0)) (m ((c : Thread nD τ).loc main_arg1)) := by
  obtain ⟨hY, hθ⟩ := Cert.Finite.reals_of_pre _ _ hpre
  rw [tail_eq]
  funext i
  rw [eq_ix0 i, Cert.ReferenceIdeal.RefRead.res_apply, addf_apply, kernel_sum]
  show _ + Cert.ReferenceIdeal.HandRun.tailV (F := Ideal) (m ((c : Thread nD τ).loc main_arg1)) ix0 = _
  refine congrArg (fun x => (wZ + x) + Cert.ReferenceIdeal.HandRun.tailV (F := Ideal) (m ((c : Thread nD τ).loc main_arg1)) ix0) ?_
  refine Finset.sum_congr rfl fun n _ => ?_
  have ha : aK m c = Cert.ReferenceIdeal.RefRead.aRow (m ((c : Thread nD τ).loc main_arg1)) := by
    unfold aK Cert.ReferenceIdeal.RefRead.aRow; rw [alpha_same]
  rw [ha]
  exact rowK_eq_rowR _ _ (fun k => hY _) (fun k => by
    obtain ⟨r, hr⟩ := alpha_real (m ((c : Thread nD τ).loc main_arg1)) hθ (ix1 k)
    exact ⟨r, by unfold Cert.ReferenceIdeal.RefRead.aRow; rw [← alpha_same]; exact hr⟩)

end Cert.Bridge

end
-- ==== Proof.lean ====
/-
  The certificate of a weak-label dispersion objective: the kernel against its reference, over the extended reals.

  Both programs take labels `Y` (200000 rows of 256 entries, `-1` meaning "abstain") and parameters `θ` (256 entries) and
  compute `∑_rows d(row) + 1e-4 · ∑ θ²`, where for a row the unmasked entries `M = {k : Y k ≠ -1}` are weighted,
  `z k = Y k · α k` with `α = 1 - 1 / (1 + exp (-(θ - 5)))`, and `d` is the mean squared deviation of the `z` over `M`
  (zero for a row with no unmasked entry).  The reference computes `d = (∑_{k ∈ M} (z k - μ)²) / |M|` with `μ = (∑ z) / |M|`;
  the kernel streams the rows in 40 tiles of 5000 rows over 2 cores, computes `d = (∑ z²) / |M| - μ²` (the variance identity),
  and accumulates the tiles' sums per core in a one-cell scratch that it copies out at each core's last tile.

  The two results are equal extended reals when the inputs are finite (the precondition): row by row by the variance
  identity over the reals (Proof/RowLaw.lean, Proof/RowSpec.lean), and the kernel's nested sums are the reference's one sum
  regrouped (Proof/Bridge.lean).  The kernel's run is read off its frame run: what each control case leaves in the scratch
  and the output block, the accumulator's invariant over the grid, the output array and the host lines around the call
  (Proof/KernelTile.lean, KernelAcc.lean, KernelArr.lean); the reference's run is stated stage by stage and read at an
  index (Proof/RefRun.lean, RefRead.lean); finiteness comes from the precondition (Proof/Finite.lean).
  The idealization pass rewrote nothing, so `preserves` is trivial; the three frames are the programs' runs with the values
  forgotten.
-/
import proofs.«176106_j65575560675889_2_alg».proof.Defs
import proofs.«176106_j65575560675889_2_alg».proof.Proof.Gen.Kernel
import proofs.«176106_j65575560675889_2_alg».proof.Proof.Gen.Kernel.Skeleton
import proofs.«176106_j65575560675889_2_alg».proof.Proof.Gen.Kernel.Launch
import proofs.«176106_j65575560675889_2_alg».proof.Proof.Gen.Kernel.Points
import proofs.«176106_j65575560675889_2_alg».proof.Proof.Gen.Kernel.Frame
import proofs.«176106_j65575560675889_2_alg».proof.Proof.Gen.KernelIdeal
import proofs.«176106_j65575560675889_2_alg».proof.Proof.Gen.KernelIdeal.Skeleton
import proofs.«176106_j65575560675889_2_alg».proof.Proof.Gen.KernelIdeal.Launch
import proofs.«176106_j65575560675889_2_alg».proof.Proof.Gen.KernelIdeal.Points
import proofs.«176106_j65575560675889_2_alg».proof.Proof.Gen.KernelIdeal.Frame
import proofs.«176106_j65575560675889_2_alg».proof.Proof.Gen.ReferenceIdeal
import proofs.«176106_j65575560675889_2_alg».proof.Proof.Gen.Pre_finite_inputs
import proofs.«176106_j65575560675889_2_alg».proof.Proof.RefRun
import proofs.«176106_j65575560675889_2_alg».proof.Proof.Bridge
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization pass rewrote no operation. -/
theorem preserves : Cert.preserves_Kernel_KernelIdeal := trivial

/-! ## The kernel's run, with its result named -/

section KernelRun
open Cert.KernelIdeal Cert.KernelIdeal.Gen

/-- Every execution of the idealized kernel ends with the result buffer at what the host lines after the call compute from
    the output array, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v16 (Pipeline.mem_restRefs_of main_v16 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end KernelRun

/-! ## The value claim -/

/-- From memories agreeing on the arguments, under the precondition, both idealized programs run and end with the same
    result: the kernel's result buffer holds the reference's result of the same arguments (`Cert.Bridge.result_eq`). -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v16, kernel_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
